-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x2 .f32) (main_arg1 : IVec S2x1600000 32) (main_arg2 : FVec F S2x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x64 .f32 := Host.absf main_arg2
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x2 : Shape := ⟨2, ![100000, 2]⟩
abbrev S2x1600000 : Shape := ⟨2, ![2, 1600000]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x2 : Shape := ⟨2, ![1700000, 2]⟩
abbrev S1x64 : Shape := ⟨2, ![1, 64]⟩
abbrev S100000x64 : Shape := ⟨2, ![100000, 64]⟩
abbrev S10000x2 : Shape := ⟨2, ![10000, 2]⟩
abbrev S10000x64 : Shape := ⟨2, ![10000, 64]⟩
abbrev S1700000x64 : Shape := ⟨2, ![1700000, 64]⟩
abbrev S10000x1 : Shape := ⟨2, ![10000, 1]⟩
abbrev S1x1 : Shape := ⟨2, ![1, 1]⟩

abbrev nBuf : Space → Nat
  | .hbm => 91
  | .vmem => 13
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S2x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x2, .f32⟩
  | .hbm, ⟨31, _⟩ => ⟨S100000x2, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x2, .f32⟩
  | .hbm, ⟨41, _⟩ => ⟨S_, .f32⟩
  | .hbm, ⟨42, _⟩ => ⟨S100000x2, .f32⟩
  | .hbm, ⟨43, _⟩ => ⟨S1700000x1, .i32⟩
  | .hbm, ⟨44, _⟩ => ⟨S100000x2, .f32⟩
  | .hbm, ⟨45, _⟩ => ⟨S100000x1, .f32⟩
  | .hbm, ⟨46, _⟩ => ⟨S100000x2, .f32⟩
  | .hbm, ⟨47, _⟩ => ⟨S100000x2, .f32⟩
  | .hbm, ⟨48, _⟩ => ⟨S1x64, .f32⟩
  | .hbm, ⟨49, _⟩ => ⟨S100000x64, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x1, .f32⟩
  | .hbm, ⟨71, _⟩ => ⟨S100000x1, .f32⟩
  | .hbm, ⟨72, _⟩ => ⟨S100000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x1, .f32⟩
  | .hbm, ⟨82, _⟩ => ⟨S_, .f32⟩
  | .hbm, ⟨83, _⟩ => ⟨S100000x1, .f32⟩
  | .hbm, ⟨84, _⟩ => ⟨S1700000x1, .i32⟩
  | .hbm, ⟨85, _⟩ => ⟨S100000x1, .f32⟩
  | .hbm, ⟨86, _⟩ => ⟨S100000x1, .f32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .local _ .vmem, ⟨0, _⟩ => ⟨S10000x2, .f32⟩
  | .local _ .vmem, ⟨1, _⟩ => ⟨S10000x2, .f32⟩
  | .local _ .vmem, ⟨2, _⟩ => ⟨S2x64, .f32⟩
  | .local _ .vmem, ⟨3, _⟩ => ⟨S1x64, .f32⟩
  | .local _ .vmem, ⟨4, _⟩ => ⟨S64x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S64x1, .f32⟩
  | .local _ .vmem, ⟨11, _⟩ => ⟨S10000x1, .f32⟩
  | .local _ .vmem, ⟨12, _⟩ => ⟨S10000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_c_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  bcast_S_S100000x2 : S_.BroadcastsInDim S100000x2 (![] : Fin 0 → Fin S100000x2.rank)
  shapeCasts_S64_S1x64 : S64.ShapeCasts S1x64
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S10000x64_S10000x64 : S10000x64.ShapeCasts S10000x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  dot_S10000x2_S2x64_S10000x64_1_0_0_1_n_n_wf : DotDims.WF S10000x2 S2x64 S10000x64 [1] [0] [0] [1] [] []
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x1_S10000x1_1_0_0_1_n_n_wf : DotDims.WF S10000x64 S64x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf
def dot_S10000x2_S2x64_S10000x64_1_0_0_1_n_n : DotDims S10000x2 S2x64 S10000x64 where
  lhsContracting := [1]
  rhsContracting := [0]
  lhsNonContracting := [0]
  rhsNonContracting := [1]
  lhsBatch := []
  rhsBatch := []
  wf := dot_S10000x2_S2x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_v30) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S2x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S100000x1, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x1, .f32⟩
  | .hbm, ⟨105, _⟩ => ⟨S1700000x1, .f32⟩
  | .hbm, ⟨106, _⟩ => ⟨S1700000x1, .f32⟩
  | .hbm, ⟨107, _⟩ => ⟨S_, .f32⟩
  | .hbm, ⟨108, _⟩ => ⟨S100000x1, .f32⟩
  | .hbm, ⟨109, _⟩ => ⟨S1700000x1, .i32⟩
  | .hbm, ⟨110, _⟩ => ⟨S100000x1, .f32⟩
  | .hbm, ⟨111, _⟩ => ⟨S1x1, .f32⟩
  | .hbm, ⟨112, _⟩ => ⟨S100000x1, .f32⟩
  | .hbm, ⟨113, _⟩ => ⟨S100000x1, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x2_S2x64_S100000x64_1_0_0_1_n_n_wf : DotDims.WF S100000x2 S2x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.GcnSpec.lean ====
/-
  The vocabulary of the graph-convolution claim, over literal extents: 100000 nodes, 1700000 edge slots (the given
  edges followed by one self loop per node), index columns of 32-bit words.

  An edge slot `e` READS node `row gi e`: the word `gi[e, 0]` read signed and clamped into the node range (what a
  row gather does with a start index). It LANDS on node `n` when the word `di[e, 0]`, read signed, is exactly `n`
  (what a scatter-add does: a word outside the node range lands nowhere). `landSum di f n` adds `f e` over the
  slots landing on `n`.

  One column `h` of node features is aggregated in two ways, with node weights `δ`:
  * `aggK`: scale each read feature by the weight of the node it is read from, add over the slots landing on `n`,
    then scale the sum by the weight of `n`;
  * `aggR`: scale each read feature by the product of the two weights (the node read from, and the node `row gi' e`
    that a second index column names), and add.
  They agree when `row gi' e = n` for every slot landing on `n` and all numbers are real, by distributivity.
-/
import Idealize.ShloMosaic.PureOps.Ideal
import Idealize.ShloMosaic.Lib.ValueIdx
import proofs.«165598_j77111842832559_2_alg».proof.Proof.LibMatProd

noncomputable section

namespace Cert.Gcn

open Idealize.ShloMosaic Idealize.ShloMosaic.ValueIdx

/-- The number of nodes. -/
abbrev NN : Nat := 100000
/-- The number of edge slots: 1600000 given edges and one self loop per node. -/
abbrev EE : Nat := 1700000

/-- A column of edge-slot index words. -/
abbrev ICol : Type := IVec ⟨2, ![EE, 1]⟩ 32

/-- The node an edge slot reads: its index word read signed, clamped into the node range. -/
def row (gi : ICol) (e : Fin EE) : Fin NN :=
  ⟨min (gi (ix2 e (0 : Fin 1))).toInt.toNat (NN - 1), lt_of_le_of_lt (Nat.min_le_right _ _) (by decide)⟩

/-- The sum of `f` over the edge slots whose index word, read signed, is exactly the node `n`. -/
def landSum (di : ICol) (f : Fin EE → EReal) (n : Fin NN) : EReal :=
  ∑ e : Fin EE, if (di (ix2 e (0 : Fin 1))).toInt = (n.val : Int) then f e else 0

/-- Pre-scale by the weight of the node read, add over the slots landing on `n`, post-scale by the weight of `n`. -/
def aggK (gi di : ICol) (δ h : Fin NN → EReal) (n : Fin NN) : EReal :=
  landSum di (fun e => h (row gi e) * δ (row gi e)) n * δ n

/-- Scale each read feature by the product of the weights of the node read and of the node the second column names. -/
def aggR (gi gi' di : ICol) (δ h : Fin NN → EReal) (n : Fin NN) : EReal :=
  landSum di (fun e => h (row gi e) * (δ (row gi e) * δ (row gi' e))) n

variable {C : Nat}

/-- `aggK` column by column on an array of node features, the weights a vector over the nodes. -/
def aggKA (gi di : ICol) (δ : (⟨1, ![NN]⟩ : Shape).Idx → EReal) (H : (⟨2, ![NN, C]⟩ : Shape).Idx → EReal) :
    (⟨2, ![NN, C]⟩ : Shape).Idx → EReal :=
  fun i => aggK gi di (fun n => δ (ix1 n)) (fun n => H (ix2 n (i 1))) (i 0)

/-- `aggR` column by column on an array of node features. -/
def aggRA (gi gi' di : ICol) (δ : (⟨1, ![NN]⟩ : Shape).Idx → EReal) (H : (⟨2, ![NN, C]⟩ : Shape).Idx → EReal) :
    (⟨2, ![NN, C]⟩ : Shape).Idx → EReal :=
  fun i => aggR gi gi' di (fun n => δ (ix1 n)) (fun n => H (ix2 n (i 1))) (i 0)

/-- A bias vector added to every row. -/
def addBias (X : (⟨2, ![NN, C]⟩ : Shape).Idx → EReal) (b : (⟨1, ![C]⟩ : Shape).Idx → EReal) :
    (⟨2, ![NN, C]⟩ : Shape).Idx → EReal :=
  fun i => X i + b (ix1 (i 1))

/-- Clamped below at zero, entry by entry (the clamp is the zero word read as an extended real). -/
def relu {M : Nat} (X : (⟨2, ![M, C]⟩ : Shape).Idx → EReal) : (⟨2, ![M, C]⟩ : Shape).Idx → EReal :=
  fun i => max (X i) (Ideal.ofBits .f32 0x00000000#32)

/-- A bias ROW added to every row, then clamped below at zero. -/
def biasRelu {M : Nat} (X : (⟨2, ![M, C]⟩ : Shape).Idx → EReal) (B : (⟨2, ![1, C]⟩ : Shape).Idx → EReal) :
    (⟨2, ![M, C]⟩ : Shape).Idx → EReal :=
  fun i => max (X i + B (ix2 0 (i 1))) (Ideal.ofBits .f32 0x00000000#32)

open Cert.MatProd in
/-- One layer as the reference arranges it: the product with the weights FIRST, then the aggregation with per-slot
    weight products, then the bias. -/
def refLayer {Cin Cout : Nat} (gi gi' di : ICol) (δ : (⟨1, ![NN]⟩ : Shape).Idx → EReal)
    (H : (⟨2, ![NN, Cin]⟩ : Shape).Idx → EReal) (W : (⟨2, ![Cin, Cout]⟩ : Shape).Idx → EReal)
    (b : (⟨1, ![Cout]⟩ : Shape).Idx → EReal) : (⟨2, ![NN, Cout]⟩ : Shape).Idx → EReal :=
  addBias (aggRA gi gi' di δ (prod H W)) b

/-- The reference's three layers: widths 2 → 64 → 64 → 1, a clamp at zero after the first two. -/
def refOut (gi gi' di : ICol) (δ : (⟨1, ![NN]⟩ : Shape).Idx → EReal)
    (x : (⟨2, ![NN, 2]⟩ : Shape).Idx → EReal) (W1 : (⟨2, ![2, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 1]⟩ : Shape).Idx → EReal) (b3 : (⟨1, ![1]⟩ : Shape).Idx → EReal) : (⟨2, ![NN, 1]⟩ : Shape).Idx → EReal :=
  refLayer gi gi' di δ (relu (refLayer gi gi' di δ (relu (refLayer gi gi' di δ x W1 b1)) W2 b2)) W3 b3

open Cert.MatProd in
/-- The kernel's arrangement: the input aggregated BEFORE its product with the first weights; each later product
    taken before the next aggregation; every aggregation pre- and post-scaled by the node weights. -/
def kerOut (gi di : ICol) (δ : (⟨1, ![NN]⟩ : Shape).Idx → EReal)
    (x : (⟨2, ![NN, 2]⟩ : Shape).Idx → EReal) (W1 : (⟨2, ![2, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 1]⟩ : Shape).Idx → EReal) (b3 : (⟨1, ![1]⟩ : Shape).Idx → EReal) : (⟨2, ![NN, 1]⟩ : Shape).Idx → EReal :=
  addBias (aggKA gi di δ (prod (relu (addBias (aggKA gi di δ
    (prod (relu (addBias (prod (aggKA gi di δ x) W1) b1)) W2)) b2)) W3)) b3

end Cert.Gcn

end
-- ==== Proof.LibScatterAddRows.lean ====
/-
  An accumulating scatter of whole rows, read at an entry.

  The operand is an `N × C` array, the updates an `E × C` array, and update row `e` is added onto the operand row
  whose number is the `e`-th scatter index (one signed integer per update row); a row whose index is negative or
  `≥ N` is dropped. On the extended reals the result at `(n, c)` is therefore the operand's entry plus the sum, over
  the update rows `e` whose index is `n`, of the update entry `(e, c)`: the columns never mix.

  Everything is general in the three extents and in the width of the index integers.
-/
import Idealize.ShloMosaic.PureOps.Ideal
import Idealize.ShloMosaic.PureOps.Contract
import Idealize.ShloMosaic.Lib.ValueIdx

noncomputable section

namespace LibScatterAddRows

open Idealize.ShloMosaic Idealize.ShloMosaic.ValueIdx

variable {N E C w : Nat}

/-- The dimension numbers of a row scatter: operand `[N, C]`, one index per update row held as `[E, 1]`, updates
    `[E, C]`; the update's axis 1 is the window, the operand's axis 0 is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- On the row axis the window of update entry `(e, b)` starts at the `e`-th scatter index, read signed. -/
theorem start_row (idx : IVec ⟨2, ![E, 1]⟩ w) (e : Fin E) (b : Fin C) :
    (rowDims N E C wf).start (ix2 e b) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e b) ⟨List.idxOf (0 : Fin 2) (rowDims N E C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis it starts at zero. -/
theorem start_col (idx : IVec ⟨2, ![E, 1]⟩ w) (e : Fin E) (b : Fin C) :
    (rowDims N E C wf).start (ix2 e b) idx 1 = 0 := by
  unfold ScatterDims.start
  rw [dif_neg (show ¬ (1 : Fin 2) ∈ (rowDims N E C wf).scatterDimsToOperandDims from by
    intro h; exact absurd (congrArg Fin.val (List.mem_singleton.mp h)) Nat.one_ne_zero)]

/-- The window coordinate on the row axis is zero … -/
theorem window_row (e : Fin E) (b : Fin C) : (rowDims N E C wf).window (ix2 e b) 0 = 0 := by
  unfold ScatterDims.window
  rw [dif_neg (show ¬ (0 : Fin 2) ∈ (rowDims N E C wf).sKept from by
    show ¬ (0 : Fin 2) ∈ ([1] : List (Fin 2))
    intro h; exact absurd (congrArg Fin.val (List.mem_singleton.mp h)) Nat.zero_ne_one)]

/-- … and on the column axis it is the update entry's column. -/
theorem window_col (e : Fin E) (b : Fin C) : (rowDims N E C wf).window (ix2 e b) 1 = b.val := by
  unfold ScatterDims.window
  rw [dif_pos (show (1 : Fin 2) ∈ (rowDims N E C wf).sKept from by
    show (1 : Fin 2) ∈ ([1] : List (Fin 2))
    exact List.mem_singleton.mpr rfl)]
  rfl

/-- WHERE AN UPDATE ENTRY LANDS: entry `(e, b)` lands on operand entry `(n, c)` exactly when the `e`-th index is
    `n` and the columns agree. -/
theorem resultIdx?_iff (idx : IVec ⟨2, ![E, 1]⟩ w) (e : Fin E) (b : Fin C) (n : Fin N) (c : Fin C) :
    (rowDims N E C wf).resultIdx? (ix2 e b) idx = some (ix2 n c)
      ↔ (idx (ix2 e (0 : Fin 1))).toInt = (n.val : Int) ∧ b = c := by
  have hs0 := start_row wf idx e b
  have hs1 := start_col wf idx e b
  have hw0 := window_row wf e b
  have hw1 := window_col wf e b
  unfold ScatterDims.resultIdx?
  constructor
  · intro H
    split at H
    · rename_i h
      have H' := Option.some.inj H
      have h0 : ((rowDims N E C wf).start (ix2 e b) idx 0 + (rowDims N E C wf).window (ix2 e b) 0).toNat = n.val :=
        congrArg (fun f => (f 0).val) H'
      have h1 : ((rowDims N E C wf).start (ix2 e b) idx 1 + (rowDims N E C wf).window (ix2 e b) 1).toNat = c.val :=
        congrArg (fun f => (f 1).val) H'
      have hh0 := (h 0).1
      rw [hs0, hw0] at h0 hh0
      rw [hs1, hw1] at h1
      exact ⟨by omega, Fin.ext (by omega)⟩
    · exact absurd H (by simp)
  · rintro ⟨h0, rfl⟩
    have hn : n.val < N := n.isLt
    have hb : b.val < C := b.isLt
    have h : ∀ a, 0 ≤ (rowDims N E C wf).start (ix2 e b) idx a + (rowDims N E C wf).window (ix2 e b) a
        ∧ (rowDims N E C wf).start (ix2 e b) idx a + (rowDims N E C wf).window (ix2 e b) a
          < (⟨2, ![N, C]⟩ : Shape).size a :=
      Fin.forall_fin_two.2 ⟨by
        rw [hs0, hw0, h0]
        refine ⟨by omega, ?_⟩
        show (n.val : Int) + ((0 : Nat) : Int) < ((N : Nat) : Int)
        omega, by
        rw [hs1, hw1]
        refine ⟨by omega, ?_⟩
        show (0 : Int) + ((b.val : Nat) : Int) < ((C : Nat) : Int)
        omega⟩
    rw [dif_pos h]
    refine congrArg some (funext ?_)
    refine Fin.forall_fin_two.2 ⟨Fin.ext ?_, Fin.ext ?_⟩
    · show ((rowDims N E C wf).start (ix2 e b) idx 0 + (rowDims N E C wf).window (ix2 e b) 0).toNat = n.val
      rw [hs0, hw0, h0]; omega
    · show ((rowDims N E C wf).start (ix2 e b) idx 1 + (rowDims N E C wf).window (ix2 e b) 1).toNat = b.val
      rw [hs1, hw1]; omega

/-- THE ROW SCATTER READ AT AN ENTRY, on the extended reals: the operand's entry plus the update entries of the
    same column in the rows whose index is `n`. -/
theorem hostScatterAdd_rows (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_iff]
  by_cases hq : (idx (ix2 e (0 : Fin 1))).toInt = (n.val : Int)
  · simp only [hq, true_and, Finset.sum_ite_eq', Finset.mem_univ, if_true]
  · simp only [hq, false_and, if_false, Finset.sum_const_zero]

/-- The same for the host operation as a program prints it, read at the exact instance. -/
theorem scatterAdd_rows (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (rowDims N E C wf) x idx upd (ix2 n c)
      = x (ix2 n c) + ∑ e : Fin E, if (idx (ix2 e (0 : Fin 1))).toInt = (n.val : Int) then upd (ix2 e c) else 0 :=
  hostScatterAdd_rows wf x idx upd n c

end LibScatterAddRows

end
-- ==== Proof.LibRowGather.lean ====
/-
  Whole rows of a table gathered at integer start indices, read at an entry.

  `x[idx]` of a table `x : [N, C]` at an integer array lowers to a gather that collapses the row axis, takes a slice of
  one row and all `C` columns, and reads the row's start off the index array. Result entry `(r, k)` — or `(r, e, k)`
  when the index array has two axes — is the table at column `k` of the row named by the start index, read as a signed
  integer and brought into `[0, N - 1]`: the gather clamps every start so that the slice fits. Stated for an index array
  laid out `[R, 1]` (one start per result row) and `[R, J, 1]` (a `J`-tuple of starts per result row), general in every
  extent and in the integers' width.
-/
import Idealize.ShloMosaic.PureOps.ShapeOps
import Idealize.ShloMosaic.PureOps.Dims
import Idealize.ShloMosaic.Lib.ValueIdx

noncomputable section

namespace Cert.RowGather

open Idealize.ShloMosaic Idealize.ShloMosaic.ValueIdx

variable {α : Type}

/-- The dimension numbers of a row gather at starts laid out `[R, 1]`. -/
abbrev dims2 (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, k)` of the gathered rows is the table at column `k` of the clamped row `idx[r, 0]`. -/
theorem rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (dims2 N C R wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (dims2 N C R wf).start (ix2 r k) idx 0 + (dims2 N C R wf).batchCoord (ix2 r k) 0 + (dims2 N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N C R wf).startIndexMap from List.mem_singleton.mpr rfl)]
    have hsi : (dims2 N C R wf).siIdx (ix2 r k) ⟨List.idxOf (0 : Fin 2) (dims2 N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (dims2 N C R wf).start (ix2 r k) idx 1 + (dims2 N C R wf).batchCoord (ix2 r k) 1 + (dims2 N C R wf).offCoord (ix2 r k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

/-- The dimension numbers of a row gather at starts laid out `[R, J, 1]`. -/
abbrev dims3 (N C R J : Nat) (wf : GatherDims.WF ⟨2, ![N, C]⟩ ⟨3, ![R, J, 1]⟩ ⟨3, ![R, J, C]⟩ [2] [0] [] [0] [] 2 ![1, C]) :
    GatherDims ⟨2, ![N, C]⟩ ⟨3, ![R, J, 1]⟩ ⟨3, ![R, J, C]⟩ where
  offsetDims := [2]
  collapsedSliceDims := [0]
  operandBatchingDims := []
  startIndicesBatchingDims := []
  startIndexMap := [0]
  indexVectorDim := 2
  sliceSizes := ![1, C]
  wf := wf

/-- Entry `(r, e, k)` of the gathered rows is the table at column `k` of the clamped row `idx[r, e, 0]`. -/
theorem rows3_apply {N C R J w : Nat} (hN : 0 < N)
    (wf : GatherDims.WF ⟨2, ![N, C]⟩ ⟨3, ![R, J, 1]⟩ ⟨3, ![R, J, C]⟩ [2] [0] [] [0] [] 2 ![1, C])
    (x : (⟨2, ![N, C]⟩ : Shape).Idx → α) (idx : IVec ⟨3, ![R, J, 1]⟩ w) (r : Fin R) (e : Fin J) (k : Fin C) :
    Host.gather (dims3 N C R J wf) x idx (ix3 r e k)
      = x (ix2 (⟨min (idx (ix3 r e (0 : Fin 1))).toInt.toNat (N - 1), by omega⟩ : Fin N) k) := by
  unfold Host.gather
  refine congrArg x (funext fun a => Fin.ext ?_)
  match a with
  | ⟨0, _⟩ =>
    show (dims3 N C R J wf).start (ix3 r e k) idx 0 + (dims3 N C R J wf).batchCoord (ix3 r e k) 0 + (dims3 N C R J wf).offCoord (ix3 r e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims3 N C R J wf).startIndexMap from List.mem_singleton.mpr rfl)]
    have hsi : (dims3 N C R J wf).siIdx (ix3 r e k) ⟨List.idxOf (0 : Fin 2) (dims3 N C R J wf).startIndexMap,
        List.idxOf_lt_length_iff.2 (List.mem_singleton.mpr rfl)⟩ = ix3 r e (0 : Fin 1) := by
      funext b; refine Fin.ext ?_
      match b with
      | ⟨0, _⟩ => rfl
      | ⟨1, _⟩ => rfl
      | ⟨2, _⟩ => rfl
    rw [hsi]
    rfl
  | ⟨1, _⟩ =>
    show (dims3 N C R J wf).start (ix3 r e k) idx 1 + (dims3 N C R J wf).batchCoord (ix3 r e k) 1 + (dims3 N C R J wf).offCoord (ix3 r e k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

end Cert.RowGather

end
-- ==== Proof.LibColumnsInDim.lean ====
/-
  Column layouts made by `broadcast_in_dim`, read at an entry.

  A vector `[a]` laid out as a one-column matrix `[a, 1]`, a one-column matrix repeated across `b` columns, and a
  `1 × 1` matrix repeated down `a` rows: each reads, at an entry, the operand at the row (or at its one entry). General
  in the extents and in the element type.
-/
import Idealize.ShloMosaic.Lib.Pipeline.Value
import Idealize.ShloMosaic.Lib.ValueIdx

namespace LibColumnsInDim

open Idealize.ShloMosaic Idealize.ShloMosaic.ValueIdx

variable {α : Type} {a b : ℕ}

/-- A vector as a one-column matrix: entry `(i, u)` is the vector's entry `i`. -/
theorem vec_col_apply (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply (![0] : Fin 1 → Fin 2) h x (ix2 i u) (ix1 i) fun ax => ?_
  match ax with
  | ⟨0, _⟩ =>
    show i.val = if a = 1 then 0 else i.val
    split
    · have := i.isLt; omega
    · rfl

/-- A one-column matrix repeated across `b` columns: entry `(i, k)` is the column's entry `i`. -/
theorem col_across_apply (x : (⟨2, ![a, 1]⟩ : Shape).Idx → α)
    (h : (⟨2, ![a, 1]⟩ : Shape).BroadcastsInDim ⟨2, ![a, b]⟩ (![0, 1] : Fin 2 → Fin 2)) (i : Fin a) (k : Fin b) :
    broadcastInDim ⟨2, ![a, b]⟩ ![0, 1] h x (ix2 i k) = x (ix2 i (0 : Fin 1)) := by
  refine broadcastInDim_apply (![0, 1] : Fin 2 → Fin 2) h x (ix2 i k) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else k.val
    rw [if_pos rfl]

/-- A `1 × 1` matrix repeated down `a` rows: every entry is its one entry. -/
theorem one_down_apply (x : (⟨2, ![1, 1]⟩ : Shape).Idx → α)
    (h : (⟨2, ![1, 1]⟩ : Shape).BroadcastsInDim ⟨2, ![a, 1]⟩ (![0, 1] : Fin 2 → Fin 2)) (i : Fin a) (u : Fin 1) :
    broadcastInDim ⟨2, ![a, 1]⟩ ![0, 1] h x (ix2 i u) = x (ix2 (0 : Fin 1) (0 : Fin 1)) := by
  refine broadcastInDim_apply (![0, 1] : Fin 2 → Fin 2) h x (ix2 i u) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else u.val
    rw [if_pos rfl]

end LibColumnsInDim
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.KernelHost.lean ====
/-
  The idealized kernel's host operations, read as functions of the buffers they start from.

  Between the pallas_calls the program aggregates node features over the graph three times, at widths 2, 64 and 1, each
  time by the same five operations: scale every node's row by the node's weight, gather the row each edge slot reads,
  scatter-add the gathered rows into zeros at the node each slot lands on, and scale every node's row by the node's weight
  again. Read at an entry `(n, k)` this is `(Σ_e [slot e lands on n] X(row e, k) · δ(row e)) · δ(n)`: `aggKA` of the
  specification (`agg_read`, general in the width). The gather's index column is the src array with negative words
  shifted by the node count (`wrapCol`), the scatter's the dst array as a column (`dstCol`); both stay opaque here.
  The remaining lemmas say which buffer holds what as each pallas_call is entered and at the end, by evaluating the
  stretch of host operations before it, and that the index arrays, the node weights and the arguments are carried
  unchanged across the stretches and the pallas_calls that do not write them.
-/
import proofs.«165598_j77111842832559_2_alg».proof.Proof.Gen.KernelIdeal.Frame
import proofs.«165598_j77111842832559_2_alg».proof.Proof.GcnSpec
import proofs.«165598_j77111842832559_2_alg».proof.Proof.LibScatterAddRows
import proofs.«165598_j77111842832559_2_alg».proof.Proof.LibRowGather
import proofs.«165598_j77111842832559_2_alg».proof.Proof.LibColumnsInDim
import proofs.«165598_j77111842832559_2_alg».proof.Proof.LibBroadcast
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.Gcn.Ker

open Idealize.ShloMosaic Idealize.ShloMosaic.TcCoe Idealize.ShloMosaic.ValueIdx Idealize.SL.Sem Idealize.ShloMosaic.StableHlo
open Cert.KernelIdeal Cert.KernelIdeal.Gen

/-! ## One aggregation, general in the width -/

/-- Scale rows by `pre`, gather at `gi`, scatter-add into `Z` at `di`, scale rows by `post`: when `Z` is zero and `pre`,
    `post` repeat the node weights `δ` along each row, entry `(n, k)` is the specification's `aggKA`. -/
theorem agg_read {C : Nat}
    (wfS : ScatterDims.WF ⟨2, ![NN, C]⟩ ⟨2, ![EE, 1]⟩ ⟨2, ![EE, C]⟩ [1] [0] [0] 1)
    (wfG : GatherDims.WF ⟨2, ![NN, C]⟩ ⟨2, ![EE, 1]⟩ ⟨2, ![EE, C]⟩ [1] [0] [] [0] [] 1 ![1, C])
    (Z X pre post : FVec Ideal ⟨2, ![NN, C]⟩ .f32) (gi di : ICol) (δ : (⟨1, ![NN]⟩ : Shape).Idx → EReal)
    (hZ : ∀ i, Z i = 0)
    (hpre : ∀ (n : Fin NN) (k : Fin C), pre (ix2 n k) = δ (ix1 n))
    (hpost : ∀ (n : Fin NN) (k : Fin C), post (ix2 n k) = δ (ix1 n)) :
    mulf (Host.scatterAdd (F := Ideal) (LibScatterAddRows.rowDims NN EE C wfS) Z di
        (Host.gather (Cert.RowGather.dims2 NN C EE wfG) (mulf X pre) gi)) post
      = aggKA gi di δ X := by
  funext i
  obtain ⟨n, k, rfl⟩ : ∃ (n : Fin NN) (k : Fin C), i = ix2 n k := ⟨i 0, i 1, eq_ix2 i⟩
  rw [mulf_apply, LibScatterAddRows.scatterAdd_rows, hZ, zero_add, hpost]
  show _ = aggK gi di (fun n => δ (ix1 n)) (fun n' => X (ix2 n' k)) n
  unfold aggK landSum
  refine congrArg (fun s => s * δ (ix1 n)) ?_
  refine Finset.sum_congr rfl fun e _ => ?_
  rw [Cert.RowGather.rows2_apply (by decide : 0 < NN), mulf_apply, hpre]
  rfl

/-! ## The index columns and the weight columns -/

/-- The gather's index column: the src words, a negative one shifted by the node count, as a column. -/
def wrapCol (S : IVec S1700000 32) : IVec S1700000x1 32 :=
  broadcastInDim S1700000x1 ![0] bcast_S1700000_S1700000x1_0
    (select (cmpi .slt S (broadcastInDim S1700000 ![] bcast_S_S1700000 (constantI S_ 32 0#32)))
      (addi S (broadcastInDim S1700000 ![] bcast_S_S1700000 (constantI S_ 32 100000#32))) S)

/-- The scatter's index column: the dst words as a column. -/
def dstCol (D : IVec S1700000 32) : IVec S1700000x1 32 :=
  broadcastInDim S1700000x1 ![0] bcast_S1700000_S1700000x1_0 D

/-- The node weights as a column. -/
def col (δ : FVec Ideal S100000 .f32) : FVec Ideal S100000x1 .f32 :=
  broadcastInDim S100000x1 ![0] bcast_S100000_S100000x1_0 δ

theorem col_apply (δ : FVec Ideal S100000 .f32) (n : Fin NN) (u : Fin 1) : col δ (ix2 n u) = δ (ix1 n) :=
  LibColumnsInDim.vec_col_apply δ bcast_S100000_S100000x1_0 n u

/-! ## The three aggregations as the program writes them -/

def aggH2 (S D : IVec S1700000 32) (δ : FVec Ideal S100000 .f32) (X : FVec Ideal S100000x2 .f32) : FVec Ideal S100000x2 .f32 :=
  mulf (Host.scatterAdd scatter_S100000x2_S1700000x1_S1700000x2_1_0_0_1
      (broadcastInDim S100000x2 ![] bcast_S_S100000x2 (constant S_ .f32 0x00000000#32)) (dstCol D)
      (Host.gather gather_S100000x2_S1700000x1_S1700000x2_1_0_n_n_0_1_12
        (mulf X (broadcastInDim S100000x2 ![0, 1] bcast_S100000x1_S100000x2_0_1 (col δ))) (wrapCol S)))
    (broadcastInDim S100000x2 ![0, 1] bcast_S100000x1_S100000x2_0_1 (col δ))

def aggH64 (S D : IVec S1700000 32) (δ : FVec Ideal S100000 .f32) (X : FVec Ideal S100000x64 .f32) : FVec Ideal S100000x64 .f32 :=
  mulf (Host.scatterAdd scatter_S100000x64_S1700000x1_S1700000x64_1_0_0_1
      (broadcastInDim S100000x64 ![] bcast_S_S100000x64 (constant S_ .f32 0x00000000#32)) (dstCol D)
      (Host.gather gather_S100000x64_S1700000x1_S1700000x64_1_0_n_n_0_1_164
        (mulf X (broadcastInDim S100000x64 ![0, 1] bcast_S100000x1_S100000x64_0_1 (col δ))) (wrapCol S)))
    (broadcastInDim S100000x64 ![0, 1] bcast_S100000x1_S100000x64_0_1 (col δ))

def aggH1 (S D : IVec S1700000 32) (δ : FVec Ideal S100000 .f32) (X : FVec Ideal S100000x1 .f32) : FVec Ideal S100000x1 .f32 :=
  mulf (Host.scatterAdd scatter_S100000x1_S1700000x1_S1700000x1_1_0_0_1
      (broadcastInDim S100000x1 ![] bcast_S_S100000x1 (constant S_ .f32 0x00000000#32)) (dstCol D)
      (Host.gather gather_S100000x1_S1700000x1_S1700000x1_1_0_n_n_0_1_11
        (mulf X (col δ)) (wrapCol S)))
    (col δ)

theorem zeros_apply {s : Shape} (hb : (⟨0, ![]⟩ : Shape).BroadcastsInDim s (![] : Fin 0 → Fin s.rank)) (i : s.Idx) :
    broadcastInDim s ![] hb (constant (F := Ideal) ⟨0, ![]⟩ .f32 0x00000000#32) i = 0 :=
  (Cert.Layout.splat_apply hb _ i).trans Ideal.ofBits_zero_f32

theorem aggH2_eq (S D : IVec S1700000 32) (δ : FVec Ideal S100000 .f32) (X : FVec Ideal S100000x2 .f32) :
    aggH2 S D δ X = aggKA (wrapCol S) (dstCol D) δ X :=
  agg_read (C := 2) scatter_S100000x2_S1700000x1_S1700000x2_1_0_0_1_wf gather_S100000x2_S1700000x1_S1700000x2_1_0_n_n_0_1_12_wf
    _ X _ _ (wrapCol S) (dstCol D) δ (zeros_apply bcast_S_S100000x2)
    (fun n k => (LibColumnsInDim.col_across_apply (col δ) bcast_S100000x1_S100000x2_0_1 n k).trans (col_apply δ n 0))
    (fun n k => (LibColumnsInDim.col_across_apply (col δ) bcast_S100000x1_S100000x2_0_1 n k).trans (col_apply δ n 0))

theorem aggH64_eq (S D : IVec S1700000 32) (δ : FVec Ideal S100000 .f32) (X : FVec Ideal S100000x64 .f32) :
    aggH64 S D δ X = aggKA (wrapCol S) (dstCol D) δ X :=
  agg_read (C := 64) scatter_S100000x64_S1700000x1_S1700000x64_1_0_0_1_wf gather_S100000x64_S1700000x1_S1700000x64_1_0_n_n_0_1_164_wf
    _ X _ _ (wrapCol S) (dstCol D) δ (zeros_apply bcast_S_S100000x64)
    (fun n k => (LibColumnsInDim.col_across_apply (col δ) bcast_S100000x1_S100000x64_0_1 n k).trans (col_apply δ n 0))
    (fun n k => (LibColumnsInDim.col_across_apply (col δ) bcast_S100000x1_S100000x64_0_1 n k).trans (col_apply δ n 0))

theorem aggH1_eq (S D : IVec S1700000 32) (δ : FVec Ideal S100000 .f32) (X : FVec Ideal S100000x1 .f32) :
    aggH1 S D δ X = aggKA (wrapCol S) (dstCol D) δ X :=
  agg_read (C := 1) scatter_S100000x1_S1700000x1_S1700000x1_1_0_0_1_wf gather_S100000x1_S1700000x1_S1700000x1_1_0_n_n_0_1_11_wf
    _ X _ _ (wrapCol S) (dstCol D) δ (zeros_apply bcast_S_S100000x1)
    (fun n k => col_apply δ n k) (fun n k => col_apply δ n k)

/-! ## What each stretch leaves -/

variable (m : (ℓ : Loc nD τ sig) → Buf (Elt Ideal) ℓ) (ρ : Dev nD → PrngReg) (c : Dev nD)

set_option maxHeartbeats 4000000 in
/-- As the first pallas_call is entered its row operand holds the aggregated input. -/
theorem W3_main_v30 : W3 (F := Ideal) m ρ c (Proc.devRef .tc main_v30)
    = aggH2 (W2 (F := Ideal) m ρ c (Proc.devRef .tc main_v3)) (W2 (F := Ideal) m ρ c (Proc.devRef .tc main_v6))
        (W2 (F := Ideal) m ρ c (Proc.devRef .tc main_v14)) (W2 (F := Ideal) m ρ c (Proc.devRef .tc main_arg0)) := by
  show StableHlo.after hostOps0_2 (W2 (F := Ideal) m ρ c) (Proc.devRef .tc main_v30) = _
  after_results_simp <;> rfl

set_option maxHeartbeats 4000000 in
/-- … and its bias operand the first bias as a row. -/
theorem W3_main_v31 : W3 (F := Ideal) m ρ c (Proc.devRef .tc main_v31)
    = shapeCast S1x64 (W2 (F := Ideal) m ρ c (Proc.devRef .tc main_arg3)) shapeCasts_S64_S1x64 := by
  show StableHlo.after hostOps0_2 (W2 (F := Ideal) m ρ c) (Proc.devRef .tc main_v31) = _
  after_results_simp <;> rfl

set_option maxHeartbeats 4000000 in
/-- As the second pallas_call is entered its row operand holds the aggregated output of the first. -/
theorem W5_main_v48 : W5 (F := Ideal) m ρ c (Proc.devRef .tc main_v48)
    = aggH64 (W4 (F := Ideal) m ρ c (Proc.devRef .tc main_v3)) (W4 (F := Ideal) m ρ c (Proc.devRef .tc main_v6))
        (W4 (F := Ideal) m ρ c (Proc.devRef .tc main_v14)) (W4 (F := Ideal) m ρ c (Proc.devRef .tc main_v32)) := by
  show StableHlo.after hostOps1 (W4 (F := Ideal) m ρ c) (Proc.devRef .tc main_v48) = _
  after_results_simp <;> rfl

set_option maxHeartbeats 4000000 in
theorem W5_main_v49 : W5 (F := Ideal) m ρ c (Proc.devRef .tc main_v49)
    = shapeCast S1x64 (W4 (F := Ideal) m ρ c (Proc.devRef .tc main_arg5)) shapeCasts_S64_S1x64 := by
  show StableHlo.after hostOps1 (W4 (F := Ideal) m ρ c) (Proc.devRef .tc main_v49) = _
  after_results_simp <;> rfl

set_option maxHeartbeats 4000000 in
/-- The result: the aggregated output of the second pallas_call plus the last bias. -/
theorem W7_main_v67 : W7 (F := Ideal) m ρ c (Proc.devRef .tc main_v67)
    = addf (aggH1 (W6 (F := Ideal) m ρ c (Proc.devRef .tc main_v3)) (W6 (F := Ideal) m ρ c (Proc.devRef .tc main_v6))
        (W6 (F := Ideal) m ρ c (Proc.devRef .tc main_v14)) (W6 (F := Ideal) m ρ c (Proc.devRef .tc main_v50)))
      (broadcastInDim S100000x1 ![0, 1] bcast_S1x1_S100000x1_0_1
        (broadcastInDim S1x1 ![1] bcast_S1_S1x1_1 (W6 (F := Ideal) m ρ c (Proc.devRef .tc main_arg7)))) := by
  show StableHlo.after hostOps2 (W6 (F := Ideal) m ρ c) (Proc.devRef .tc main_v67) = _
  after_results_simp <;> rfl

/-! ## What is carried unchanged -/

set_option maxHeartbeats 4000000 in
theorem W3_main_v3 : W3 (F := Ideal) m ρ c (Proc.devRef .tc main_v3) = W2 (F := Ideal) m ρ c (Proc.devRef .tc main_v3) := by
  show StableHlo.after hostOps0_2 (W2 (F := Ideal) m ρ c) (Proc.devRef .tc main_v3) = _
  after_results_simp <;> rfl
set_option maxHeartbeats 4000000 in
theorem W3_main_v6 : W3 (F := Ideal) m ρ c (Proc.devRef .tc main_v6) = W2 (F := Ideal) m ρ c (Proc.devRef .tc main_v6) := by
  show StableHlo.after hostOps0_2 (W2 (F := Ideal) m ρ c) (Proc.devRef .tc main_v6) = _
  after_results_simp <;> rfl
set_option maxHeartbeats 4000000 in
theorem W3_main_v14 : W3 (F := Ideal) m ρ c (Proc.devRef .tc main_v14) = W2 (F := Ideal) m ρ c (Proc.devRef .tc main_v14) := by
  show StableHlo.after hostOps0_2 (W2 (F := Ideal) m ρ c) (Proc.devRef .tc main_v14) = _
  after_results_simp <;> rfl
set_option maxHeartbeats 4000000 in
theorem W3_main_arg2 : W3 (F := Ideal) m ρ c (Proc.devRef .tc main_arg2) = W2 (F := Ideal) m ρ c (Proc.devRef .tc main_arg2) := by
  show StableHlo.after hostOps0_2 (W2 (F := Ideal) m ρ c) (Proc.devRef .tc main_arg2) = _
  after_results_simp <;> rfl
set_option maxHeartbeats 4000000 in
theorem W3_main_arg4 : W3 (F := Ideal) m ρ c (Proc.devRef .tc main_arg4) = W2 (F := Ideal) m ρ c (Proc.devRef .tc main_arg4) := by
  show StableHlo.after hostOps0_2 (W2 (F := Ideal) m ρ c) (Proc.devRef .tc main_arg4) = _
  after_results_simp <;> rfl
set_option maxHeartbeats 4000000 in
theorem W3_main_arg5 : W3 (F := Ideal) m ρ c (Proc.devRef .tc main_arg5) = W2 (F := Ideal) m ρ c (Proc.devRef .tc main_arg5) := by
  show StableHlo.after hostOps0_2 (W2 (F := Ideal) m ρ c) (Proc.devRef .tc main_arg5) = _
  after_results_simp <;> rfl
set_option maxHeartbeats 4000000 in
theorem W3_main_arg6 : W3 (F := Ideal) m ρ c (Proc.devRef .tc main_arg6) = W2 (F := Ideal) m ρ c (Proc.devRef .tc main_arg6) := by
  show StableHlo.after hostOps0_2 (W2 (F := Ideal) m ρ c) (Proc.devRef .tc main_arg6) = _
  after_results_simp <;> rfl
set_option maxHeartbeats 4000000 in
theorem W3_main_arg7 : W3 (F := Ideal) m ρ c (Proc.devRef .tc main_arg7) = W2 (F := Ideal) m ρ c (Proc.devRef .tc main_arg7) := by
  show StableHlo.after hostOps0_2 (W2 (F := Ideal) m ρ c) (Proc.devRef .tc main_arg7) = _
  after_results_simp <;> rfl
set_option maxHeartbeats 4000000 in
theorem W4_main_v3 : W4 (F := Ideal) m ρ c (Proc.devRef .tc main_v3) = W3 (F := Ideal) m ρ c (Proc.devRef .tc main_v3) := W4_of_ne m ρ c main_v3 (by decide)
set_option maxHeartbeats 4000000 in
theorem W4_main_v6 : W4 (F := Ideal) m ρ c (Proc.devRef .tc main_v6) = W3 (F := Ideal) m ρ c (Proc.devRef .tc main_v6) := W4_of_ne m ρ c main_v6 (by decide)
set_option maxHeartbeats 4000000 in
theorem W4_main_v14 : W4 (F := Ideal) m ρ c (Proc.devRef .tc main_v14) = W3 (F := Ideal) m ρ c (Proc.devRef .tc main_v14) := W4_of_ne m ρ c main_v14 (by decide)
set_option maxHeartbeats 4000000 in
theorem W4_main_arg5 : W4 (F := Ideal) m ρ c (Proc.devRef .tc main_arg5) = W3 (F := Ideal) m ρ c (Proc.devRef .tc main_arg5) := W4_of_ne m ρ c main_arg5 (by decide)
set_option maxHeartbeats 4000000 in
theorem W4_main_arg6 : W4 (F := Ideal) m ρ c (Proc.devRef .tc main_arg6) = W3 (F := Ideal) m ρ c (Proc.devRef .tc main_arg6) := W4_of_ne m ρ c main_arg6 (by decide)
set_option maxHeartbeats 4000000 in
theorem W4_main_arg7 : W4 (F := Ideal) m ρ c (Proc.devRef .tc main_arg7) = W3 (F := Ideal) m ρ c (Proc.devRef .tc main_arg7) := W4_of_ne m ρ c main_arg7 (by decide)
set_option maxHeartbeats 4000000 in
theorem W5_main_v3 : W5 (F := Ideal) m ρ c (Proc.devRef .tc main_v3) = W4 (F := Ideal) m ρ c (Proc.devRef .tc main_v3) := by
  show StableHlo.after hostOps1 (W4 (F := Ideal) m ρ c) (Proc.devRef .tc main_v3) = _
  after_results_simp <;> rfl
set_option maxHeartbeats 4000000 in
theorem W5_main_v6 : W5 (F := Ideal) m ρ c (Proc.devRef .tc main_v6) = W4 (F := Ideal) m ρ c (Proc.devRef .tc main_v6) := by
  show StableHlo.after hostOps1 (W4 (F := Ideal) m ρ c) (Proc.devRef .tc main_v6) = _
  after_results_simp <;> rfl
set_option maxHeartbeats 4000000 in
theorem W5_main_v14 : W5 (F := Ideal) m ρ c (Proc.devRef .tc main_v14) = W4 (F := Ideal) m ρ c (Proc.devRef .tc main_v14) := by
  show StableHlo.after hostOps1 (W4 (F := Ideal) m ρ c) (Proc.devRef .tc main_v14) = _
  after_results_simp <;> rfl
set_option maxHeartbeats 4000000 in
theorem W5_main_arg6 : W5 (F := Ideal) m ρ c (Proc.devRef .tc main_arg6) = W4 (F := Ideal) m ρ c (Proc.devRef .tc main_arg6) := by
  show StableHlo.after hostOps1 (W4 (F := Ideal) m ρ c) (Proc.devRef .tc main_arg6) = _
  after_results_simp <;> rfl
set_option maxHeartbeats 4000000 in
theorem W5_main_arg7 : W5 (F := Ideal) m ρ c (Proc.devRef .tc main_arg7) = W4 (F := Ideal) m ρ c (Proc.devRef .tc main_arg7) := by
  show StableHlo.after hostOps1 (W4 (F := Ideal) m ρ c) (Proc.devRef .tc main_arg7) = _
  after_results_simp <;> rfl
set_option maxHeartbeats 4000000 in
theorem W6_main_v3 : W6 (F := Ideal) m ρ c (Proc.devRef .tc main_v3) = W5 (F := Ideal) m ρ c (Proc.devRef .tc main_v3) := W6_of_ne m ρ c main_v3 (by decide)
set_option maxHeartbeats 4000000 in
theorem W6_main_v6 : W6 (F := Ideal) m ρ c (Proc.devRef .tc main_v6) = W5 (F := Ideal) m ρ c (Proc.devRef .tc main_v6) := W6_of_ne m ρ c main_v6 (by decide)
set_option maxHeartbeats 4000000 in
theorem W6_main_v14 : W6 (F := Ideal) m ρ c (Proc.devRef .tc main_v14) = W5 (F := Ideal) m ρ c (Proc.devRef .tc main_v14) := W6_of_ne m ρ c main_v14 (by decide)
set_option maxHeartbeats 4000000 in
theorem W6_main_arg7 : W6 (F := Ideal) m ρ c (Proc.devRef .tc main_arg7) = W5 (F := Ideal) m ρ c (Proc.devRef .tc main_arg7) := W6_of_ne m ρ c main_arg7 (by decide)

set_option maxHeartbeats 4000000 in
theorem W2_main_arg0 : W2 (F := Ideal) m ρ c (Proc.devRef .tc main_arg0) = m ((c : Thread nD τ).loc main_arg0) := by
  show StableHlo.after hostOps0_1 (StableHlo.after hostOps0 (W0 (F := Ideal) m ρ c)) (Proc.devRef .tc main_arg0) = _
  after_results_simp <;> rfl
set_option maxHeartbeats 4000000 in
theorem W2_main_arg2 : W2 (F := Ideal) m ρ c (Proc.devRef .tc main_arg2) = m ((c : Thread nD τ).loc main_arg2) := by
  show StableHlo.after hostOps0_1 (StableHlo.after hostOps0 (W0 (F := Ideal) m ρ c)) (Proc.devRef .tc main_arg2) = _
  after_results_simp <;> rfl
set_option maxHeartbeats 4000000 in
theorem W2_main_arg3 : W2 (F := Ideal) m ρ c (Proc.devRef .tc main_arg3) = m ((c : Thread nD τ).loc main_arg3) := by
  show StableHlo.after hostOps0_1 (StableHlo.after hostOps0 (W0 (F := Ideal) m ρ c)) (Proc.devRef .tc main_arg3) = _
  after_results_simp <;> rfl
set_option maxHeartbeats 4000000 in
theorem W2_main_arg4 : W2 (F := Ideal) m ρ c (Proc.devRef .tc main_arg4) = m ((c : Thread nD τ).loc main_arg4) := by
  show StableHlo.after hostOps0_1 (StableHlo.after hostOps0 (W0 (F := Ideal) m ρ c)) (Proc.devRef .tc main_arg4) = _
  after_results_simp <;> rfl
set_option maxHeartbeats 4000000 in
theorem W2_main_arg5 : W2 (F := Ideal) m ρ c (Proc.devRef .tc main_arg5) = m ((c : Thread nD τ).loc main_arg5) := by
  show StableHlo.after hostOps0_1 (StableHlo.after hostOps0 (W0 (F := Ideal) m ρ c)) (Proc.devRef .tc main_arg5) = _
  after_results_simp <;> rfl
set_option maxHeartbeats 4000000 in
theorem W2_main_arg6 : W2 (F := Ideal) m ρ c (Proc.devRef .tc main_arg6) = m ((c : Thread nD τ).loc main_arg6) := by
  show StableHlo.after hostOps0_1 (StableHlo.after hostOps0 (W0 (F := Ideal) m ρ c)) (Proc.devRef .tc main_arg6) = _
  after_results_simp <;> rfl
set_option maxHeartbeats 4000000 in
theorem W2_main_arg7 : W2 (F := Ideal) m ρ c (Proc.devRef .tc main_arg7) = m ((c : Thread nD τ).loc main_arg7) := by
  show StableHlo.after hostOps0_1 (StableHlo.after hostOps0 (W0 (F := Ideal) m ρ c)) (Proc.devRef .tc main_arg7) = _
  after_results_simp <;> rfl

end Cert.Gcn.Ker

end
-- ==== Proof.RegionVals.lean ====
/-
  What each of the program's two blocked regions leaves in its output array, as one whole-array function of the
  region's input arrays, over the extended reals, whatever the arrays hold when the region is entered.

  Region 0 works on blocks of 10000 rows: from a block of a [100000, 2] array it forms a dense layer (the product with
  a [2, 64] matrix, plus a bias row, clamped below at zero) and multiplies the result by a [64, 64] matrix. Region 1,
  on blocks of 10000 rows of a [100000, 64] array, adds a bias row, clamps below at zero and multiplies by a [64, 1]
  matrix. Each row of a product depends on the same row of the left operand only, so the blocks of the result are the
  blocks of ONE product of the whole arrays; the ten blocks tile the rows, so the array ends holding that product.

  Per region: the body's arithmetic as that function of its loaded blocks (a change of float format is the identity,
  a product into the zero accumulator is the sum over the contracted axis); the printed index maps, decided over the
  ten grid points; what a point writes back is its block of the whole-array function; the point covering row `r` is
  `r / 10000`; the array after the write-backs.
-/
import proofs.«165598_j77111842832559_2_alg».proof.Proof.Gen.KernelIdeal.Frame
import proofs.«165598_j77111842832559_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Region

open Cert.KernelIdeal Cert.KernelIdeal.Gen Idealize.ShloMosaic Idealize.ShloMosaic.TcCoe Idealize.SL.Sem
open Idealize.ShloMosaic.Pipeline (Dat)
open Idealize.ShloMosaic.ValueIdx
open Cert.MatProd

/-- The zero offsets of a whole-buffer rectangle, as the constant function. -/
theorem zero_offsets : (![0, 0] : Fin 2 → Nat) = fun _ => 0 := funext fun a => by fin_cases a <;> rfl

/-! ## Region 0: the body's arithmetic -/

/-- The body's one stored value: the dense layer of the loaded block of rows, times the second weight matrix. -/
theorem pay0_eq (x0 : Vec Ideal S10000x2 .f32) (x1 : Vec Ideal S2x64 .f32) (x2 : Vec Ideal S1x64 .f32)
    (x3 : Vec Ideal S64x64 .f32) :
    k0_pay1 (F := Ideal) x0 x1 x2 x3 = prod (denseRelu x0 x1 x2) x3 := by
  funext i
  obtain ⟨p, q, rfl⟩ : ∃ (p : Fin 10000) (q : Fin 64), i = ix2 p q := ⟨i 0, i 1, eq_ix2 i⟩
  unfold k0_pay1
  simp only [shapeCast_self]
  refine (matmul_plain_zero_apply (M := 10000) (K := 64) (N := 64) none _ _ p q).trans ?_
  refine Finset.sum_congr rfl fun k _ => ?_
  refine congrArg (· * x3 (ix2 k q)) ?_
  refine congrArg₂ max (congrArg₂ (· + ·) ?_ ?_) rfl
  · exact matmul_plain_zero_apply (M := 10000) (K := 2) (N := 64) none _ _ p k
  · exact broadcastTo_1b_ab_apply x2 _ p k

/-! ## Region 0: the printed index maps, and the blocks they name -/

/-- The printed index maps, decided over the ten grid points: the two row-blocked windows (the input rows and the
    output) sit at block `t` of the row axis; every other window is its whole array, at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section
variable (V : (c : Dev nD) → (b : Ref sig .tc) → Buf (Elt Ideal) ((c : Thread nD τ).loc b))

/-- The input rows' block at point `t` is rows `10000 t, …, 10000 t + 9999` of the array. -/
theorem iblk0_rows (c : Dev nD) (t : Fin cfg0.N) (p : Fin 10000) (k : Fin 2) (r : Fin 100000)
    (hr : r.val = t.val * 10000 + p.val) :
    (iblk0 (F := Ideal) V c 0 t : S10000x2.Idx → EReal) (ix2 p k) = (V c main_v30 : S100000x2.Idx → EReal) (ix2 r k) := by
  obtain ⟨e0, e1, -⟩ := idx_facts0 t
  show (V c main_v30 : S100000x2.Idx → EReal) (((cfg0.win 0).blk t).view.emb (ix2 p k)) = _
  refine congrArg _ (funext fun a => Fin.ext ?_)
  match a with
  | ⟨0, _⟩ => show win0_0.index t (0 : Fin 2) * 10000 + 1 * p.val = r.val; rw [e0, hr]; omega
  | ⟨1, _⟩ => show win0_0.index t (1 : Fin 2) * 2 + 1 * k.val = k.val; rw [e1]; omega

/-- The first weight matrix's block at any point is the whole matrix. -/
theorem iblk0_w1 (c : Dev nD) (t : Fin cfg0.N) :
    (iblk0 (F := Ideal) V c 1 t : S2x64.Idx → EReal) = (V c main_arg2 : S2x64.Idx → EReal) := by
  obtain ⟨-, -, e0, e1, -⟩ := idx_facts0 t
  funext y
  show (V c main_arg2 : S2x64.Idx → EReal) (((cfg0.win 1).blk t).view.emb y) = _
  refine congrArg _ (funext fun a => Fin.ext ?_)
  match a with
  | ⟨0, _⟩ => show win0_1.index t (0 : Fin 2) * 2 + 1 * (y 0).val = (y 0).val; rw [e0]; omega
  | ⟨1, _⟩ => show win0_1.index t (1 : Fin 2) * 64 + 1 * (y 1).val = (y 1).val; rw [e1]; omega

/-- The bias row's block at any point is the whole row. -/
theorem iblk0_b1 (c : Dev nD) (t : Fin cfg0.N) :
    (iblk0 (F := Ideal) V c 2 t : S1x64.Idx → EReal) = (V c main_v31 : S1x64.Idx → EReal) := by
  obtain ⟨-, -, -, -, e0, e1, -⟩ := idx_facts0 t
  funext y
  show (V c main_v31 : S1x64.Idx → EReal) (((cfg0.win 2).blk t).view.emb y) = _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The second weight matrix's block at any point is the whole matrix. -/
theorem iblk0_w2 (c : Dev nD) (t : Fin cfg0.N) :
    (iblk0 (F := Ideal) V c 3 t : S64x64.Idx → EReal) = (V c main_arg4 : S64x64.Idx → EReal) := by
  obtain ⟨-, -, -, -, -, -, e0, e1, -⟩ := idx_facts0 t
  funext y
  show (V c main_arg4 : S64x64.Idx → EReal) (((cfg0.win 3).blk t).view.emb y) = _
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

end

/-! ## Region 0: a block of the result is a block of one product of the whole arrays -/

/-- Row `p` of the result computed from a block of rows is row `tv * 10000 + p` of the result computed from the whole
    array, when the block's rows are the array's rows from `tv * 10000` on: a row of a product depends on the same
    row of the left operand only. -/
theorem rows_block0 (A : S100000x2.Idx → EReal) (W1 : S2x64.Idx → EReal) (B : S1x64.Idx → EReal) (W2 : S64x64.Idx → EReal)
    (x0 : S10000x2.Idx → EReal) (tv : Nat)
    (hx0 : ∀ (p : Fin 10000) (k : Fin 2) (r : Fin 100000), r.val = tv * 10000 + p.val → x0 (ix2 p k) = A (ix2 r k))
    (y : S10000x64.Idx) (i : S100000x64.Idx) (h0 : (i 0).val = tv * 10000 + (y 0).val) (h1 : (i 1).val = (y 1).val) :
    prod (denseRelu x0 W1 B) W2 y = prod (denseRelu A W1 B) W2 i := by
  obtain ⟨p, q, rfl⟩ : ∃ (p : Fin 10000) (q : Fin 64), y = ix2 p q := ⟨y 0, y 1, eq_ix2 y⟩
  have hq : q = i 1 := Fin.ext h1.symm
  refine prod_block_eq (denseRelu A W1 B) W2 (denseRelu x0 W1 B) W2 p q i (fun k => ?_) (fun k => ?_)
  · exact denseRelu_block_eq A W1 B x0 W1 B p k (ix2 (i 0) k) (fun k' => hx0 p k' (i 0) h0) (fun _ => rfl) rfl
  · rw [hq]

section
variable (V : (c : Dev nD) → (b : Ref sig .tc) → Buf (Elt Ideal) ((c : Thread nD τ).loc b))

/-! ## Region 0: what a point writes back, the cover, the array -/

/-- WHAT POINT `t` WRITES BACK is block `t` of the product of the whole arrays. -/
theorem flushed0_eq (c : Dev nD) (t : Fin cfg0.N) :
    (dat0 (F := Ideal) V c).flushed 4 t = ((cfg0.win 4).blk t).view.read (Elt Ideal)
      (prod (denseRelu (V c main_v30 : S100000x2.Idx → EReal) (V c main_arg2 : S2x64.Idx → EReal)
        (V c main_v31 : S1x64.Idx → EReal)) (V c main_arg4 : S64x64.Idx → EReal)) := by
  show (cfg0.win 4).cut (grid0.coords t) ((dat0 (F := Ideal) V c).after 4 t) = _
  rw [after0_4]
  unfold out0_4
  rw [View.canon_unit_zero zero_offsets]
  simp only [View.ld_unit_zero (S := S10000x2) zero_offsets, View.ld_unit_zero (S := S2x64) zero_offsets,
    View.ld_unit_zero (S := S1x64) zero_offsets, View.ld_unit_zero (S := S64x64) zero_offsets]
  rw [pay0_eq, iblk0_w1 V c t, iblk0_b1 V c t, iblk0_w2 V c t]
  obtain ⟨-, -, -, -, -, -, -, -, e0, e1⟩ := idx_facts0 t
  funext j
  refine rows_block0 (V c main_v30) (V c main_arg2) (V c main_v31) (V c main_arg4) (iblk0 (F := Ideal) V c 0 t) t.val
    (fun p k r hr => iblk0_rows V c t p k r hr) j (((cfg0.win 4).blk t).view.emb j) ?_ ?_
  · show win0_4.index t (0 : Fin 2) * 10000 + 1 * (j 0).val = t.val * 10000 + (j 0).val
    rw [e0]; omega
  · show win0_4.index t (1 : Fin 2) * 64 + 1 * (j 1).val = (j 1).val
    rw [e1]; omega

/-- An index of the output array is in point `t`'s block iff each coordinate is in the block's range on its axis. -/
theorem mem_blk0 (t : Fin cfg0.N) (i : S100000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v32).slice (win0_4.rect t)).set ↔ _
  rw [View.set_slice_whole, Rect.mem_set_unit]
  exact Iff.rfl

/-- The ten blocks tile the rows: row `r` is in the block of point `r / 10000`. -/
theorem cover0 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, -, -, -, -, e0, e1⟩ := idx_facts0 t
  refine ⟨t, flush0_4 t, ?_⟩
  rw [mem_blk0]
  intro a
  match a with
  | ⟨0, _⟩ =>
    show win0_4.index t (0 : Fin 2) * 10000 ≤ (i 0).val ∧ (i 0).val < win0_4.index t (0 : Fin 2) * 10000 + 10000
    rw [e0, ht]; omega
  | ⟨1, _⟩ =>
    show win0_4.index t (1 : Fin 2) * 64 ≤ (i 1).val ∧ (i 1).val < win0_4.index t (1 : Fin 2) * 64 + 64
    rw [e1]; omega

/-- THE OUTPUT ARRAY OF REGION 0 after its write-backs: the dense layer of the input rows, times the second weight
    matrix, as one function of the arrays the region finds. -/
theorem region0_array (c : Dev nD) :
    (dat0 (F := Ideal) V c).arrAt 4 cfg0.N
      = prod (denseRelu (V c main_v30) (V c main_arg2) (V c main_v31)) (V c main_arg4) :=
  (dat0 (F := Ideal) V c).arrAt_eq_of_cover 4 _ (fun t _ => flushed0_eq V c t) cover0

end

/-! ## Region 1: the body's arithmetic -/

/-- The body's one stored value: the loaded block of rows plus the bias row, clamped below at zero, times the
    one-column weight matrix. -/
theorem pay1_eq (x0 : Vec Ideal S10000x64 .f32) (x1 : Vec Ideal S1x64 .f32) (x2 : Vec Ideal S64x1 .f32) :
    k1_pay1 (F := Ideal) x0 x1 x2 = prod (Cert.Gcn.biasRelu x0 x1) x2 := by
  funext i
  obtain ⟨p, q, rfl⟩ : ∃ (p : Fin 10000) (q : Fin 1), i = ix2 p q := ⟨i 0, i 1, eq_ix2 i⟩
  unfold k1_pay1
  simp only [shapeCast_self]
  refine (matmul_plain_zero_apply (M := 10000) (K := 64) (N := 1) none _ _ p q).trans ?_
  refine Finset.sum_congr rfl fun k _ => ?_
  refine congrArg (· * x2 (ix2 k q)) ?_
  show max (x0 (ix2 p k) + broadcastTo ⟨2, ![10000, 64]⟩ x1 broadcasts_S1x64_S10000x64 (ix2 p k))
      (Ideal.ofBits .f32 0x00000000#32)
    = max (x0 (ix2 p k) + x1 (ix2 0 k)) (Ideal.ofBits .f32 0x00000000#32)
  rw [broadcastTo_1b_ab_apply]

/-! ## Region 1: the printed index maps, and the blocks they name -/

/-- The printed index maps, decided over the ten grid points: the two row-blocked windows (the input rows and the
    output) sit at block `t` of the row axis; the bias row and the weight matrix are whole, at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- The input rows' block at point `t` is rows `10000 t, …, 10000 t + 9999` of the array. -/
theorem iblk1_rows (c : Dev nD) (t : Fin cfg1.N) (p : Fin 10000) (k : Fin 64) (r : Fin 100000)
    (hr : r.val = t.val * 10000 + p.val) :
    (iblk1 (F := Ideal) V c 0 t : S10000x64.Idx → EReal) (ix2 p k) = (V c main_v48 : S100000x64.Idx → EReal) (ix2 r k) := by
  obtain ⟨e0, e1, -⟩ := idx_facts1 t
  show (V c main_v48 : S100000x64.Idx → EReal) (((cfg1.win 0).blk t).view.emb (ix2 p k)) = _
  refine congrArg _ (funext fun a => Fin.ext ?_)
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The bias row's block at any point is the whole row. -/
theorem iblk1_b (c : Dev nD) (t : Fin cfg1.N) :
    (iblk1 (F := Ideal) V c 1 t : S1x64.Idx → EReal) = (V c main_v49 : S1x64.Idx → EReal) := by
  obtain ⟨-, -, e0, e1, -⟩ := idx_facts1 t
  funext y
  show (V c main_v49 : S1x64.Idx → EReal) (((cfg1.win 1).blk t).view.emb y) = _
  refine congrArg _ (funext fun a => Fin.ext ?_)
  match a with
  | ⟨0, _⟩ => show win1_1.index t (0 : Fin 2) * 1 + 1 * (y 0).val = (y 0).val; rw [e0]; omega
  | ⟨1, _⟩ => show win1_1.index t (1 : Fin 2) * 64 + 1 * (y 1).val = (y 1).val; rw [e1]; omega

/-- The weight matrix's block at any point is the whole matrix. -/
theorem iblk1_w (c : Dev nD) (t : Fin cfg1.N) :
    (iblk1 (F := Ideal) V c 2 t : S64x1.Idx → EReal) = (V c main_arg6 : S64x1.Idx → EReal) := by
  obtain ⟨-, -, -, -, e0, e1, -⟩ := idx_facts1 t
  funext y
  show (V c main_arg6 : S64x1.Idx → EReal) (((cfg1.win 2).blk t).view.emb y) = _
  refine congrArg _ (funext fun a => Fin.ext ?_)
  match a with
  | ⟨0, _⟩ => show win1_2.index t (0 : Fin 2) * 64 + 1 * (y 0).val = (y 0).val; rw [e0]; omega
  | ⟨1, _⟩ => show win1_2.index t (1 : Fin 2) * 1 + 1 * (y 1).val = (y 1).val; rw [e1]; omega

end

/-! ## Region 1: a block of the result is a block of one product of the whole arrays -/

/-- Row `p` of the result computed from a block of rows is row `tv * 10000 + p` of the result computed from the whole
    array, when the block's rows are the array's rows from `tv * 10000` on. -/
theorem rows_block1 (A : S100000x64.Idx → EReal) (B : S1x64.Idx → EReal) (W : S64x1.Idx → EReal)
    (x0 : S10000x64.Idx → EReal) (tv : Nat)
    (hx0 : ∀ (p : Fin 10000) (k : Fin 64) (r : Fin 100000), r.val = tv * 10000 + p.val → x0 (ix2 p k) = A (ix2 r k))
    (y : S10000x1.Idx) (i : S100000x1.Idx) (h0 : (i 0).val = tv * 10000 + (y 0).val) (h1 : (i 1).val = (y 1).val) :
    prod (Cert.Gcn.biasRelu x0 B) W y = prod (Cert.Gcn.biasRelu A B) W i := by
  obtain ⟨p, q, rfl⟩ : ∃ (p : Fin 10000) (q : Fin 1), y = ix2 p q := ⟨y 0, y 1, eq_ix2 y⟩
  have hq : q = i 1 := Fin.ext h1.symm
  refine prod_block_eq (Cert.Gcn.biasRelu A B) W (Cert.Gcn.biasRelu x0 B) W p q i (fun k => ?_) (fun k => ?_)
  · show max (x0 (ix2 p k) + B (ix2 0 k)) (Ideal.ofBits .f32 0x00000000#32)
      = max (A (ix2 (i 0) k) + B (ix2 0 k)) (Ideal.ofBits .f32 0x00000000#32)
    rw [hx0 p k (i 0) h0]
  · rw [hq]

section
variable (V : (c : Dev nD) → (b : Ref sig .tc) → Buf (Elt Ideal) ((c : Thread nD τ).loc b))

/-! ## Region 1: what a point writes back, the cover, the array -/

/-- WHAT POINT `t` WRITES BACK is block `t` of the product of the whole arrays. -/
theorem flushed1_eq (c : Dev nD) (t : Fin cfg1.N) :
    (dat1 (F := Ideal) V c).flushed 3 t = ((cfg1.win 3).blk t).view.read (Elt Ideal)
      (prod (Cert.Gcn.biasRelu (V c main_v48 : S100000x64.Idx → EReal) (V c main_v49 : S1x64.Idx → EReal))
        (V c main_arg6 : S64x1.Idx → EReal)) := by
  show (cfg1.win 3).cut (grid1.coords t) ((dat1 (F := Ideal) V c).after 3 t) = _
  rw [after1_3]
  unfold out1_3
  rw [View.canon_unit_zero zero_offsets]
  simp only [View.ld_unit_zero (S := S10000x64) zero_offsets, View.ld_unit_zero (S := S1x64) zero_offsets,
    View.ld_unit_zero (S := S64x1) zero_offsets]
  rw [pay1_eq, iblk1_b V c t, iblk1_w V c t]
  obtain ⟨-, -, -, -, -, -, e0, e1⟩ := idx_facts1 t
  funext j
  refine rows_block1 (V c main_v48) (V c main_v49) (V c main_arg6) (iblk1 (F := Ideal) V c 0 t) t.val
    (fun p k r hr => iblk1_rows V c t p k r hr) j (((cfg1.win 3).blk t).view.emb j) ?_ ?_
  · show win1_3.index t (0 : Fin 2) * 10000 + 1 * (j 0).val = t.val * 10000 + (j 0).val
    rw [e0]; omega
  · show win1_3.index t (1 : Fin 2) * 1 + 1 * (j 1).val = (j 1).val
    rw [e1]; omega

/-- An index of the output array is in point `t`'s block iff each coordinate is in the block's range on its axis. -/
theorem mem_blk1 (t : Fin cfg1.N) (i : S100000x1.Idx) :
    i ∈ ((cfg1.win 3).blk t).view.set ↔ ∀ a : Fin 2, win1_3.index t a * S10000x1.size a ≤ (i a).val
      ∧ (i a).val < win1_3.index t a * S10000x1.size a + S10000x1.size a := by
  show i ∈ ((View.whole main_v50).slice (win1_3.rect t)).set ↔ _
  rw [View.set_slice_whole, Rect.mem_set_unit]
  exact Iff.rfl

/-- The ten blocks tile the rows: row `r` is in the block of point `r / 10000`. -/
theorem cover1 (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  have hN : grid1.N = 10 := N_1
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, -, -, -, e0, e1⟩ := idx_facts1 t
  refine ⟨t, flush1_3 t, ?_⟩
  rw [mem_blk1]
  intro a
  match a with
  | ⟨0, _⟩ =>
    show win1_3.index t (0 : Fin 2) * 10000 ≤ (i 0).val ∧ (i 0).val < win1_3.index t (0 : Fin 2) * 10000 + 10000
    rw [e0, ht]; omega
  | ⟨1, _⟩ =>
    show win1_3.index t (1 : Fin 2) * 1 ≤ (i 1).val ∧ (i 1).val < win1_3.index t (1 : Fin 2) * 1 + 1
    rw [e1]; omega

/-- THE OUTPUT ARRAY OF REGION 1 after its write-backs: the input rows plus the bias row, clamped below at zero, times
    the one-column weight matrix, as one function of the arrays the region finds. -/
theorem region1_array (c : Dev nD) :
    (dat1 (F := Ideal) V c).arrAt 3 cfg1.N
      = prod (Cert.Gcn.biasRelu (V c main_v48) (V c main_v49)) (V c main_arg6) :=
  (dat1 (F := Ideal) V c).arrAt_eq_of_cover 3 _ (fun t _ => flushed1_eq V c t) cover1

end

end Cert.Gcn.Region

end
-- ==== Proof.KernelValue.lean ====
/-
  The idealized kernel's result as the specification function `kerOut` of the launch arrays.

  Reading backwards from the result buffer: the last stretch aggregates (width 1) the second pallas_call's output and adds
  the last bias; that output is `relu(A + b2) · W3` of the aggregated (width 64) output of the first pallas_call, which
  is `relu(A' · W1 + b1) · W2` of the aggregated (width 2) input. Each aggregation is the specification's `aggKA` with
  the same two index columns and the same node weights, because the src and dst words and the weights are written once,
  before the first pallas_call, and nothing afterwards writes them; the biases enter the pallas_calls as rows, which read
  back as the bias vectors.
-/
import proofs.«165598_j77111842832559_2_alg».proof.Proof.KernelHost
import proofs.«165598_j77111842832559_2_alg».proof.Proof.RegionVals

set_option maxRecDepth 16384

noncomputable section

namespace Cert.Gcn.Ker

open Idealize.ShloMosaic Idealize.ShloMosaic.TcCoe Idealize.ShloMosaic.ValueIdx Idealize.SL.Sem Idealize.ShloMosaic.StableHlo
open Cert.KernelIdeal Cert.KernelIdeal.Gen Cert.MatProd

/-! ## Bias rows and the last bias read back as vectors -/

theorem denseRelu_row {K N : Nat} (A : (⟨2, ![NN, K]⟩ : Shape).Idx → EReal) (Wt : (⟨2, ![K, N]⟩ : Shape).Idx → EReal)
    (b : (⟨1, ![N]⟩ : Shape).Idx → EReal) (h : (⟨1, ![N]⟩ : Shape).ShapeCasts ⟨2, ![1, N]⟩) :
    denseRelu A Wt (shapeCast ⟨2, ![1, N]⟩ b h) = relu (addBias (prod A Wt) b) := by
  funext i
  obtain ⟨n, k, rfl⟩ : ∃ (n : Fin NN) (k : Fin N), i = ix2 n k := ⟨i 0, i 1, eq_ix2 i⟩
  show max (prod A Wt (ix2 n k) + shapeCast ⟨2, ![1, N]⟩ b h (ix2 0 k)) _ = max (prod A Wt (ix2 n k) + b (ix1 k)) _
  rw [Cert.Layout.row_of_vec_apply]

theorem biasRelu_row {N : Nat} (X : (⟨2, ![NN, N]⟩ : Shape).Idx → EReal)
    (b : (⟨1, ![N]⟩ : Shape).Idx → EReal) (h : (⟨1, ![N]⟩ : Shape).ShapeCasts ⟨2, ![1, N]⟩) :
    biasRelu X (shapeCast ⟨2, ![1, N]⟩ b h) = relu (addBias X b) := by
  funext i
  obtain ⟨n, k, rfl⟩ : ∃ (n : Fin NN) (k : Fin N), i = ix2 n k := ⟨i 0, i 1, eq_ix2 i⟩
  show max (X (ix2 n k) + shapeCast ⟨2, ![1, N]⟩ b h (ix2 0 k)) _ = max (X (ix2 n k) + b (ix1 k)) _
  rw [Cert.Layout.row_of_vec_apply]

theorem addf_bias (Y : FVec Ideal ⟨2, ![NN, 1]⟩ .f32) (b : (⟨1, ![1]⟩ : Shape).Idx → EReal)
    (h1 : (⟨1, ![1]⟩ : Shape).BroadcastsInDim ⟨2, ![1, 1]⟩ ![1])
    (h2 : (⟨2, ![1, 1]⟩ : Shape).BroadcastsInDim ⟨2, ![NN, 1]⟩ ![0, 1]) :
    addf Y (broadcastInDim ⟨2, ![NN, 1]⟩ ![0, 1] h2 (broadcastInDim ⟨2, ![1, 1]⟩ ![1] h1 b)) = addBias Y b := by
  funext i
  obtain ⟨n, u, rfl⟩ : ∃ (n : Fin NN) (u : Fin 1), i = ix2 n u := ⟨i 0, i 1, eq_ix2 i⟩
  rw [addf_apply, Cert.Layout.rows_of_vec_apply]
  rfl

/-! ## The chain -/

variable (m : (ℓ : Loc nD τ sig) → Buf (Elt Ideal) ℓ) (ρ : Dev nD → PrngReg) (c : Dev nD)

set_option maxHeartbeats 4000000 in
theorem W2_main_v3 : W2 (F := Ideal) m ρ c (Proc.devRef .tc main_v3) = W1 (F := Ideal) m ρ c (Proc.devRef .tc main_v3) := by
  show StableHlo.after hostOps0_1 (W1 (F := Ideal) m ρ c) (Proc.devRef .tc main_v3) = _
  after_results_simp <;> rfl
set_option maxHeartbeats 4000000 in
theorem W2_main_v6 : W2 (F := Ideal) m ρ c (Proc.devRef .tc main_v6) = W1 (F := Ideal) m ρ c (Proc.devRef .tc main_v6) := by
  show StableHlo.after hostOps0_1 (W1 (F := Ideal) m ρ c) (Proc.devRef .tc main_v6) = _
  after_results_simp <;> rfl

/-- The first pallas_call's output array. -/
theorem W4_main_v32 : W4 (F := Ideal) m ρ c (Proc.devRef .tc main_v32)
    = prod (denseRelu (W3 (F := Ideal) m ρ c (Proc.devRef .tc main_v30)) (W3 (F := Ideal) m ρ c (Proc.devRef .tc main_arg2)) (W3 (F := Ideal) m ρ c (Proc.devRef .tc main_v31))) (W3 (F := Ideal) m ρ c (Proc.devRef .tc main_arg4)) :=
  (W4_arr m ρ c 4).trans (Cert.Gcn.Region.region0_array (V3 (F := Ideal) m ρ) c)

/-- The second pallas_call's output array. -/
theorem W6_main_v50 : W6 (F := Ideal) m ρ c (Proc.devRef .tc main_v50)
    = prod (biasRelu (W5 (F := Ideal) m ρ c (Proc.devRef .tc main_v48)) (W5 (F := Ideal) m ρ c (Proc.devRef .tc main_v49))) (W5 (F := Ideal) m ρ c (Proc.devRef .tc main_arg6)) :=
  (W6_arr m ρ c 3).trans (Cert.Gcn.Region.region1_array (V5 (F := Ideal) m ρ) c)

/-- The result buffer at the last boundary is `kerOut` of the launch arrays, with the index columns and the node weights
    the first stretches write. -/
theorem kernel_value : W7 (F := Ideal) m ρ c (Proc.devRef .tc main_v67)
    = kerOut (wrapCol (W1 (F := Ideal) m ρ c (Proc.devRef .tc main_v3))) (dstCol (W1 (F := Ideal) m ρ c (Proc.devRef .tc main_v6))) (W2 (F := Ideal) m ρ c (Proc.devRef .tc main_v14))
        (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) := by
  -- the index arrays and the weights at every later boundary are the ones first written
  have hS2 := W2_main_v3 m ρ c
  have hD2 := W2_main_v6 m ρ c
  have hS4 : W4 (F := Ideal) m ρ c (Proc.devRef .tc main_v3) = W1 (F := Ideal) m ρ c (Proc.devRef .tc main_v3) := (W4_main_v3 m ρ c).trans ((W3_main_v3 m ρ c).trans hS2)
  have hD4 : W4 (F := Ideal) m ρ c (Proc.devRef .tc main_v6) = W1 (F := Ideal) m ρ c (Proc.devRef .tc main_v6) := (W4_main_v6 m ρ c).trans ((W3_main_v6 m ρ c).trans hD2)
  have hδ4 : W4 (F := Ideal) m ρ c (Proc.devRef .tc main_v14) = W2 (F := Ideal) m ρ c (Proc.devRef .tc main_v14) := (W4_main_v14 m ρ c).trans (W3_main_v14 m ρ c)
  have hS6 : W6 (F := Ideal) m ρ c (Proc.devRef .tc main_v3) = W1 (F := Ideal) m ρ c (Proc.devRef .tc main_v3) := (W6_main_v3 m ρ c).trans ((W5_main_v3 m ρ c).trans hS4)
  have hD6 : W6 (F := Ideal) m ρ c (Proc.devRef .tc main_v6) = W1 (F := Ideal) m ρ c (Proc.devRef .tc main_v6) := (W6_main_v6 m ρ c).trans ((W5_main_v6 m ρ c).trans hD4)
  have hδ6 : W6 (F := Ideal) m ρ c (Proc.devRef .tc main_v14) = W2 (F := Ideal) m ρ c (Proc.devRef .tc main_v14) := (W6_main_v14 m ρ c).trans ((W5_main_v14 m ρ c).trans hδ4)
  -- the arguments at the boundaries where they are read
  have h7 : W6 (F := Ideal) m ρ c (Proc.devRef .tc main_arg7) = m ((c : Thread nD τ).loc main_arg7) :=
    (W6_main_arg7 m ρ c).trans ((W5_main_arg7 m ρ c).trans ((W4_main_arg7 m ρ c).trans ((W3_main_arg7 m ρ c).trans (W2_main_arg7 m ρ c))))
  have h6 : W5 (F := Ideal) m ρ c (Proc.devRef .tc main_arg6) = m ((c : Thread nD τ).loc main_arg6) :=
    (W5_main_arg6 m ρ c).trans ((W4_main_arg6 m ρ c).trans ((W3_main_arg6 m ρ c).trans (W2_main_arg6 m ρ c)))
  have h5 : W4 (F := Ideal) m ρ c (Proc.devRef .tc main_arg5) = m ((c : Thread nD τ).loc main_arg5) :=
    (W4_main_arg5 m ρ c).trans ((W3_main_arg5 m ρ c).trans (W2_main_arg5 m ρ c))
  have h4 : W3 (F := Ideal) m ρ c (Proc.devRef .tc main_arg4) = m ((c : Thread nD τ).loc main_arg4) := (W3_main_arg4 m ρ c).trans (W2_main_arg4 m ρ c)
  have h2 : W3 (F := Ideal) m ρ c (Proc.devRef .tc main_arg2) = m ((c : Thread nD τ).loc main_arg2) := (W3_main_arg2 m ρ c).trans (W2_main_arg2 m ρ c)
  rw [W7_main_v67, hS6, hD6, hδ6, h7, aggH1_eq, addf_bias,
    W6_main_v50, h6, W5_main_v48, W5_main_v49, hS4, hD4, hδ4, h5, aggH64_eq, biasRelu_row,
    W4_main_v32, h4, h2, W3_main_v30, W3_main_v31, hS2, hD2, W2_main_arg0, W2_main_arg3, aggH2_eq, denseRelu_row]
  rfl

end Cert.Gcn.Ker

end
-- ==== Proof.CrossId.lean ====
/-
  The two programs build the same index arrays and node weights from the edge array.

  Both concatenate a row of the edge array with the node numbers to get the src and dst words, count how many slots land
  on each node, and take the reciprocal square root of the count where it is positive. The operations are the same,
  in a slightly different order, so the kernel's buffers after its first stretches ARE the reference's stages of the
  same edge array: no arithmetic is opened here, each identity is the two terms being one term.
-/
import proofs.«165598_j77111842832559_2_alg».proof.Proof.KernelHost
import proofs.«165598_j77111842832559_2_alg».proof.Proof.RefReadPatched

set_option maxRecDepth 16384

noncomputable section

namespace Cert.Gcn.Cross

open Idealize.ShloMosaic Idealize.ShloMosaic.TcCoe Idealize.ShloMosaic.ValueIdx Idealize.SL.Sem Idealize.ShloMosaic.StableHlo
open Cert.KernelIdeal Cert.KernelIdeal.Gen Cert.Gcn.Ker

variable (m : (ℓ : Loc nD τ sig) → Buf (Elt Ideal) ℓ) (ρ : Dev nD → PrngReg) (c : Dev nD)

set_option maxHeartbeats 4000000 in
/-- The kernel's src words are the reference's. -/
theorem src_eq : W1 (F := Ideal) m ρ c (Proc.devRef .tc main_v3)
    = Cert.ReferenceIdeal.ReadP.val_main_v3 (F := Ideal) (m ((c : Thread nD τ).loc main_arg1)) := by
  show StableHlo.after hostOps0 (W0 (F := Ideal) m ρ c) (Proc.devRef .tc main_v3) = _
  after_results_simp <;> rfl

set_option maxHeartbeats 4000000 in
/-- The kernel's dst words are the reference's. -/
theorem dst_eq : W1 (F := Ideal) m ρ c (Proc.devRef .tc main_v6)
    = Cert.ReferenceIdeal.ReadP.val_main_v7 (F := Ideal) (m ((c : Thread nD τ).loc main_arg1)) := by
  show StableHlo.after hostOps0 (W0 (F := Ideal) m ρ c) (Proc.devRef .tc main_v6) = _
  after_results_simp <;> rfl

set_option maxHeartbeats 4000000 in
/-- The kernel's degrees are the reference's: the same scatter-add of ones into zeros at the dst column. -/
theorem deg_eq : W1 (F := Ideal) m ρ c (Proc.devRef .tc main_v10)
    = Cert.ReferenceIdeal.ReadP.val_main_v11 (F := Ideal) (m ((c : Thread nD τ).loc main_arg1)) := by
  have h : W1 (F := Ideal) m ρ c (Proc.devRef .tc main_v10)
      = Host.scatterAdd (F := Ideal) scatter_S100000_S1700000x1_S1700000_n_0_0_1
          (broadcastInDim S100000 ![] bcast_S_S100000 (constant (F := Ideal) S_ .f32 0x00000000#32))
          (broadcastInDim S1700000x1 ![0] bcast_S1700000_S1700000x1_0 (W1 (F := Ideal) m ρ c (Proc.devRef .tc main_v6) : IVec S1700000 32))
          (broadcastInDim S1700000 ![] bcast_S_S1700000 (constant (F := Ideal) S_ .f32 0x3F800000#32)) := by
    show StableHlo.after hostOps0 (W0 (F := Ideal) m ρ c) (Proc.devRef .tc main_v10)
      = Host.scatterAdd (F := Ideal) scatter_S100000_S1700000x1_S1700000_n_0_0_1
          (broadcastInDim S100000 ![] bcast_S_S100000 (constant (F := Ideal) S_ .f32 0x00000000#32))
          (broadcastInDim S1700000x1 ![0] bcast_S1700000_S1700000x1_0 (StableHlo.after hostOps0 (W0 (F := Ideal) m ρ c) (Proc.devRef .tc main_v6) : IVec S1700000 32))
          (broadcastInDim S1700000 ![] bcast_S_S1700000 (constant (F := Ideal) S_ .f32 0x3F800000#32))
    after_results_simp <;> rfl
  rw [h, dst_eq]
  rfl

set_option maxHeartbeats 4000000 in
/-- The comparison of the degrees with zero. -/
theorem degpos_eq : W1 (F := Ideal) m ρ c (Proc.devRef .tc main_v12)
    = Cert.ReferenceIdeal.ReadP.val_main_v13 (F := Ideal) (m ((c : Thread nD τ).loc main_arg1)) := by
  have h : W1 (F := Ideal) m ρ c (Proc.devRef .tc main_v12)
      = cmpf (F := Ideal) .ogt (W1 (F := Ideal) m ρ c (Proc.devRef .tc main_v10) : FVec Ideal S100000 .f32)
          (broadcastInDim S100000 ![] bcast_S_S100000 (constant (F := Ideal) S_ .f32 0x00000000#32)) := by
    show StableHlo.after hostOps0 (W0 (F := Ideal) m ρ c) (Proc.devRef .tc main_v12)
      = cmpf (F := Ideal) .ogt (StableHlo.after hostOps0 (W0 (F := Ideal) m ρ c) (Proc.devRef .tc main_v10) : FVec Ideal S100000 .f32)
          (broadcastInDim S100000 ![] bcast_S_S100000 (constant (F := Ideal) S_ .f32 0x00000000#32))
    after_results_simp <;> rfl
  rw [h, deg_eq]
  rfl

set_option maxHeartbeats 4000000 in
/-- The reciprocal square roots of the degrees. -/
theorem rsqrt_eq : W1 (F := Ideal) m ρ c (Proc.devRef .tc main_v13)
    = Cert.ReferenceIdeal.ReadP.val_main_v14 (F := Ideal) (m ((c : Thread nD τ).loc main_arg1)) := by
  have h : W1 (F := Ideal) m ρ c (Proc.devRef .tc main_v13)
      = (Host.rsqrt : FVec Ideal S100000 .f32 → FVec Ideal S100000 .f32) (W1 (F := Ideal) m ρ c (Proc.devRef .tc main_v10)) := by
    show StableHlo.after hostOps0 (W0 (F := Ideal) m ρ c) (Proc.devRef .tc main_v13)
      = (Host.rsqrt : FVec Ideal S100000 .f32 → FVec Ideal S100000 .f32) (StableHlo.after hostOps0 (W0 (F := Ideal) m ρ c) (Proc.devRef .tc main_v10))
    after_results_simp <;> rfl
  rw [h, deg_eq]
  rfl

set_option maxHeartbeats 4000000 in
/-- The stretch that selects the weights, from any contents: the reciprocal square root where the degree is positive,
    the zero splat elsewhere. -/
theorem select_stretch (V : Valuation τ sig (Elt Ideal)) :
    StableHlo.after hostOps0_1 V (Proc.devRef .tc main_v14)
      = select (V (Proc.devRef .tc main_v12) : IVec S100000 1) (V (Proc.devRef .tc main_v13) : FVec Ideal S100000 .f32)
          (broadcastInDim S100000 ![] bcast_S_S100000 (id (V (Proc.devRef .tc main_cst_2) : FVec Ideal S_ .f32))) := by
  after_results_simp <;> rfl

set_option maxHeartbeats 4000000 in
/-- The zero the selection falls back to. -/
theorem zero_eq : W1 (F := Ideal) m ρ c (Proc.devRef .tc main_cst_2) = constant (F := Ideal) S_ .f32 0x00000000#32 := by
  show StableHlo.after hostOps0 (W0 (F := Ideal) m ρ c) (Proc.devRef .tc main_cst_2) = _
  after_results_simp <;> rfl

/-- The kernel's node weights are the reference's: the same selection between the reciprocal square root and zero. -/
theorem weights_eq : W2 (F := Ideal) m ρ c (Proc.devRef .tc main_v14)
    = Cert.ReferenceIdeal.ReadP.val_main_v15 (F := Ideal) (m ((c : Thread nD τ).loc main_arg1)) := by
  show StableHlo.after hostOps0_1 (W1 (F := Ideal) m ρ c) (Proc.devRef .tc main_v14) = _
  rw [select_stretch, degpos_eq, rsqrt_eq, zero_eq]
  rfl

/-- The gather's index column over the reference's src words is the reference's own gather column. -/
theorem wrapCol_eq (x1 : (⟨Cert.ReferenceIdeal.S2x1600000, .i32⟩ : BufTy).Contents (Elt Ideal)) :
    wrapCol (Cert.ReferenceIdeal.ReadP.val_main_v3 (F := Ideal) x1) = Cert.ReferenceIdeal.ReadP.val_main_v21 (F := Ideal) x1 := rfl

/-- The scatter's index column over the reference's dst words is the reference's own scatter column. -/
theorem dstCol_eq (x1 : (⟨Cert.ReferenceIdeal.S2x1600000, .i32⟩ : BufTy).Contents (Elt Ideal)) :
    dstCol (Cert.ReferenceIdeal.ReadP.val_main_v7 (F := Ideal) x1) = Cert.ReferenceIdeal.ReadP.val_main_v10 (F := Ideal) x1 := rfl

end Cert.Gcn.Cross

end
-- ==== Proof.LibRealSum.lean ====
/-
  Finite sums of real numbers inside the extended reals.

  The extended reals are not a ring: a product does not distribute over a sum when an infinity meets a
  term of the other sign. Every law used by this certificate is therefore proved on the real numbers
  and carried to the extended reals through the coercion, which is additive and multiplicative on
  reals. This module holds the one general fact that makes that possible for sums of any finite length.
-/
import Mathlib

namespace LibRealSum

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end LibRealSum
-- ==== Proof.LibRealEntries.lean ====
/-
  Arrays of extended reals whose every entry is a real number, and the operations that keep them so.

  The extended reals are not a ring, and subtraction on them is not associative at the infinities; the laws this
  certificate uses hold on real numbers. This module carries "every entry is a real" through the network's stages:
  a plain matrix product of real matrices is real (a finite sum of products of reals), a row added to every row of a
  real matrix is real, and a clamp below at the zero word is real.
-/
import proofs.«165598_j77111842832559_2_alg».proof.Proof.LibMatProd
import proofs.«165598_j77111842832559_2_alg».proof.Proof.LibRealSum

noncomputable section

open scoped BigOperators

namespace Cert.RealEntries

open Idealize.ShloMosaic Idealize.ShloMosaic.ValueIdx Cert.MatProd

/-- A finite sum of products of reals is a real. -/
theorem sum_mul_real {K : Nat} (a b : Fin K → EReal) (ha : ∀ k, ∃ r : ℝ, a k = (r : EReal))
    (hb : ∀ k, ∃ r : ℝ, b k = (r : EReal)) : ∃ r : ℝ, ∑ k : Fin K, a k * b k = (r : EReal) := by
  choose a' ha' using ha
  choose b' hb' using hb
  refine ⟨∑ k : Fin K, a' k * b' k, ?_⟩
  rw [LibRealSum.coe_sum]
  exact Finset.sum_congr rfl fun k _ => by rw [ha' k, hb' k, EReal.coe_mul]

/-- The plain product of two real matrices is real. -/
theorem prod_real {M K N : Nat} (A : (⟨2, ![M, K]⟩ : Shape).Idx → EReal) (B : (⟨2, ![K, N]⟩ : Shape).Idx → EReal)
    (hA : ∀ i, ∃ r : ℝ, A i = (r : EReal)) (hB : ∀ i, ∃ r : ℝ, B i = (r : EReal)) :
    ∀ i, ∃ r : ℝ, prod A B i = (r : EReal) :=
  fun i => sum_mul_real (fun k => A (ix2 (i 0) k)) (fun k => B (ix2 k (i 1))) (fun _ => hA _) (fun _ => hB _)

/-- A dense layer of real arrays is real: the product plus a bias row, clamped below at the zero word. -/
theorem denseRelu_real {M K N : Nat} (A : (⟨2, ![M, K]⟩ : Shape).Idx → EReal) (W : (⟨2, ![K, N]⟩ : Shape).Idx → EReal)
    (B : (⟨2, ![1, N]⟩ : Shape).Idx → EReal) (hA : ∀ i, ∃ r : ℝ, A i = (r : EReal))
    (hW : ∀ i, ∃ r : ℝ, W i = (r : EReal)) (hB : ∀ i, ∃ r : ℝ, B i = (r : EReal)) :
    ∀ i, ∃ r : ℝ, denseRelu A W B i = (r : EReal) := by
  intro i
  obtain ⟨p, hp⟩ := prod_real A W hA hW i
  obtain ⟨b, hb⟩ := hB (ix2 0 (i 1))
  refine ⟨max (p + b) 0, ?_⟩
  show max (prod A W i + B (ix2 0 (i 1))) (Ideal.ofBits .f32 0x00000000#32) = _
  rw [hp, hb, Ideal.ofBits_zero_f32, ← EReal.coe_add, ← EReal.coe_zero]
  exact (EReal.coe_strictMono.monotone.map_max (a := p + b) (b := 0)).symm

end Cert.RealEntries

end
-- ==== Proof.GcnAlgebra.lean ====
/-
  The two arrangements of the graph convolution agree on real data.

  For one node `n`, write `L e` for "edge slot `e` lands on `n`", `g e` for the node the slot reads and `δ` for the node
  weights. The kernel's aggregation of a column `h` is `(Σ_e [L e] h(g e) δ(g e)) · δ(n)`; the reference's is
  `Σ_e [L e] h(g e) · (δ(g e) · δ(g' e))`, where `g' e = n` whenever `L e`. Over the reals the two are equal by
  distributing `δ(n)` over the sum (`aggK_eq_aggR`). For the first layer the kernel also moves the product with the
  weight matrix across the aggregation: `Σ_d ((Σ_e [L e] x(g e, d) δ(g e)) δ(n)) W(d, k) = Σ_e [L e] (Σ_d x(g e, d) W(d, k)) δ(g e) δ(n)`
  by exchanging the two finite sums (`prod_aggKA`). On the extended reals neither step holds in general (a product does not
  distribute over a sum with infinite terms), so every array is asked to have real entries, and the equalities are proved
  on the real representatives and carried across the coercion. Products, sums, the bias and the clamp at zero keep entries
  real, which carries the hypothesis from layer to layer (`kerOut_eq_refOut`).
-/
import Mathlib
import proofs.«165598_j77111842832559_2_alg».proof.Proof.GcnSpec
import proofs.«165598_j77111842832559_2_alg».proof.Proof.LibRealSum
import proofs.«165598_j77111842832559_2_alg».proof.Proof.LibRealEntries

noncomputable section

namespace Cert.Gcn

open Idealize.ShloMosaic Idealize.ShloMosaic.ValueIdx Cert.MatProd

/-! ## Finite sums of reals with a condition, across the coercion -/

theorem coe_ite_zero (P : Prop) [Decidable P] (a : ℝ) :
    ((if P then a else 0 : ℝ) : EReal) = if P then (a : EReal) else 0 := by
  split_ifs <;> simp

theorem coe_sum_fin {K : Nat} (f : Fin K → ℝ) : (∑ k : Fin K, (f k : EReal)) = ((∑ k : Fin K, f k : ℝ) : EReal) :=
  (LibRealSum.coe_sum Finset.univ f).symm

/-- A conditional sum of reals, in the extended reals, is the coercion of the real conditional sum. -/
theorem landSum_coe (di : ICol) (a : Fin EE → ℝ) (n : Fin NN) :
    landSum di (fun e => (a e : EReal)) n
      = ((∑ e : Fin EE, if (di (ix2 e (0 : Fin 1))).toInt = (n.val : Int) then a e else 0 : ℝ) : EReal) := by
  unfold landSum
  rw [LibRealSum.coe_sum]
  exact Finset.sum_congr rfl fun e _ => (coe_ite_zero _ _).symm

/-! ## The two real identities -/

/-- Distributing a factor over a conditional sum. -/
theorem cond_sum_mul {ε : Type} [Fintype ε] (P : ε → Prop) [DecidablePred P] (a : ε → ℝ) (t : ℝ) :
    (∑ e, if P e then a e else 0) * t = ∑ e, if P e then a e * t else 0 := by
  rw [Finset.sum_mul]
  exact Finset.sum_congr rfl fun e _ => by split_ifs <;> simp

/-- Exchanging a contraction over `d` with a conditional sum over `e`. -/
theorem contract_cond_sum {ε κ : Type} [Fintype ε] [Fintype κ] (P : ε → Prop) [DecidablePred P]
    (a : ε → κ → ℝ) (s : ε → ℝ) (t : ℝ) (w : κ → ℝ) :
    ∑ d, ((∑ e, if P e then a e d * s e else 0) * t) * w d
      = ∑ e, if P e then (∑ d, a e d * w d) * (s e * t) else 0 := by
  have h1 : ∀ d, ((∑ e, if P e then a e d * s e else 0) * t) * w d = ∑ e, if P e then a e d * s e * t * w d else 0 := by
    intro d
    rw [cond_sum_mul, cond_sum_mul]
  rw [Finset.sum_congr rfl fun d _ => h1 d, Finset.sum_comm]
  refine Finset.sum_congr rfl fun e _ => ?_
  by_cases hP : P e
  · simp only [hP, if_true]
    rw [Finset.sum_mul]
    exact Finset.sum_congr rfl fun d _ => by ring
  · simp only [hP, if_false, Finset.sum_const_zero]

/-! ## One node, one column -/

/-- The kernel's pre- and post-scaled aggregation is the reference's aggregation with per-slot weight products. -/
theorem aggK_eq_aggR (gi gi' di : ICol) (δ h : Fin NN → EReal) (n : Fin NN)
    (hδ : ∀ i, ∃ r : ℝ, δ i = (r : EReal)) (hh : ∀ i, ∃ r : ℝ, h i = (r : EReal))
    (hland : ∀ e : Fin EE, (di (ix2 e (0 : Fin 1))).toInt = (n.val : Int) → row gi' e = n) :
    aggK gi di δ h n = aggR gi gi' di δ h n := by
  choose δ' hδ using hδ
  choose h' hh using hh
  have hL : aggK gi di δ h n
      = (((∑ e : Fin EE, if (di (ix2 e (0 : Fin 1))).toInt = (n.val : Int) then h' (row gi e) * δ' (row gi e) else 0) * δ' n : ℝ) : EReal) := by
    unfold aggK
    rw [EReal.coe_mul, ← landSum_coe, hδ n]
    congr 2
    funext e
    rw [hh, hδ, EReal.coe_mul]
  have hR : aggR gi gi' di δ h n
      = ((∑ e : Fin EE, if (di (ix2 e (0 : Fin 1))).toInt = (n.val : Int) then h' (row gi e) * δ' (row gi e) * δ' n else 0 : ℝ) : EReal) := by
    unfold aggR landSum
    rw [LibRealSum.coe_sum]
    refine Finset.sum_congr rfl fun e _ => ?_
    by_cases hP : (di (ix2 e (0 : Fin 1))).toInt = (n.val : Int)
    · simp only [hP, if_true]
      rw [hland e hP, hh, hδ, hδ n, ← EReal.coe_mul, ← EReal.coe_mul, mul_assoc]
    · simp only [hP, if_false, EReal.coe_zero]
  rw [hL, hR, cond_sum_mul]

/-! ## Entries stay real -/

theorem max_zero_real (r : ℝ) : ∃ s : ℝ, max (r : EReal) 0 = (s : EReal) := by
  rcases le_total (r : EReal) 0 with h | h
  · exact ⟨0, by rw [max_eq_right h]; rfl⟩
  · exact ⟨r, max_eq_left h⟩

variable {C : Nat}

theorem relu_real {M : Nat} (X : (⟨2, ![M, C]⟩ : Shape).Idx → EReal) (hX : ∀ i, ∃ r : ℝ, X i = (r : EReal)) :
    ∀ i, ∃ r : ℝ, relu X i = (r : EReal) := by
  intro i
  obtain ⟨r, hr⟩ := hX i
  show ∃ s : ℝ, max (X i) (Ideal.ofBits .f32 0x00000000#32) = (s : EReal)
  rw [Ideal.ofBits_zero_f32, hr]
  exact max_zero_real r

theorem addBias_real (X : (⟨2, ![NN, C]⟩ : Shape).Idx → EReal) (b : (⟨1, ![C]⟩ : Shape).Idx → EReal)
    (hX : ∀ i, ∃ r : ℝ, X i = (r : EReal)) (hb : ∀ i, ∃ r : ℝ, b i = (r : EReal)) :
    ∀ i, ∃ r : ℝ, addBias X b i = (r : EReal) := by
  intro i
  obtain ⟨r, hr⟩ := hX i
  obtain ⟨s, hs⟩ := hb (ix1 (i 1))
  exact ⟨r + s, by show X i + b (ix1 (i 1)) = _; rw [hr, hs, EReal.coe_add]⟩

theorem aggRA_real (gi gi' di : ICol) (δ : (⟨1, ![NN]⟩ : Shape).Idx → EReal) (H : (⟨2, ![NN, C]⟩ : Shape).Idx → EReal)
    (hδ : ∀ i, ∃ r : ℝ, δ i = (r : EReal)) (hH : ∀ i, ∃ r : ℝ, H i = (r : EReal)) :
    ∀ i, ∃ r : ℝ, aggRA gi gi' di δ H i = (r : EReal) := by
  intro i
  obtain ⟨n, k, rfl⟩ : ∃ (n : Fin NN) (k : Fin C), i = ix2 n k := ⟨i 0, i 1, eq_ix2 i⟩
  choose δ' hδ using hδ
  choose H' hH using hH
  refine ⟨∑ e : Fin EE, if (di (ix2 e (0 : Fin 1))).toInt = (n.val : Int)
      then H' (ix2 (row gi e) k) * (δ' (ix1 (row gi e)) * δ' (ix1 (row gi' e))) else 0, ?_⟩
  rw [← landSum_coe]
  show aggR gi gi' di (fun n => δ (ix1 n)) (fun n' => H (ix2 n' k)) n = _
  unfold aggR
  refine congrArg (fun f => landSum di f n) (funext fun e => ?_)
  beta_reduce
  rw [hH, hδ, hδ, EReal.coe_mul, EReal.coe_mul]

/-! ## Whole arrays -/

/-- Column by column, on real data, the kernel's aggregation is the reference's. -/
theorem aggKA_eq_aggRA (gi gi' di : ICol) (δ : (⟨1, ![NN]⟩ : Shape).Idx → EReal) (H : (⟨2, ![NN, C]⟩ : Shape).Idx → EReal)
    (hδ : ∀ i, ∃ r : ℝ, δ i = (r : EReal)) (hH : ∀ i, ∃ r : ℝ, H i = (r : EReal))
    (hland : ∀ (e : Fin EE) (n : Fin NN), (di (ix2 e (0 : Fin 1))).toInt = (n.val : Int) → row gi' e = n) :
    aggKA gi di δ H = aggRA gi gi' di δ H := by
  funext i
  exact aggK_eq_aggR gi gi' di (fun n => δ (ix1 n)) (fun n => H (ix2 n (i 1))) (i 0)
    (fun n => hδ (ix1 n)) (fun n => hH (ix2 n (i 1))) (fun e he => hland e (i 0) he)

/-- The first layer: aggregating the input and then contracting with the weights is contracting first and aggregating
    after, on real data. -/
theorem prod_aggKA (gi gi' di : ICol) (δ : (⟨1, ![NN]⟩ : Shape).Idx → EReal)
    (x : (⟨2, ![NN, 2]⟩ : Shape).Idx → EReal) (W : (⟨2, ![2, C]⟩ : Shape).Idx → EReal)
    (hδ : ∀ i, ∃ r : ℝ, δ i = (r : EReal)) (hx : ∀ i, ∃ r : ℝ, x i = (r : EReal)) (hW : ∀ i, ∃ r : ℝ, W i = (r : EReal))
    (hland : ∀ (e : Fin EE) (n : Fin NN), (di (ix2 e (0 : Fin 1))).toInt = (n.val : Int) → row gi' e = n) :
    prod (aggKA gi di δ x) W = aggRA gi gi' di δ (prod x W) := by
  funext i
  obtain ⟨n, k, rfl⟩ : ∃ (n : Fin NN) (k : Fin C), i = ix2 n k := ⟨i 0, i 1, eq_ix2 i⟩
  choose δ' hδ using hδ
  choose x' hx using hx
  choose W' hW using hW
  have hL : prod (aggKA gi di δ x) W (ix2 n k)
      = ((∑ d : Fin 2, ((∑ e : Fin EE, if (di (ix2 e (0 : Fin 1))).toInt = (n.val : Int)
            then x' (ix2 (row gi e) d) * δ' (ix1 (row gi e)) else 0) * δ' (ix1 n)) * W' (ix2 d k) : ℝ) : EReal) := by
    rw [prod_apply, ← coe_sum_fin]
    refine Finset.sum_congr rfl fun d _ => ?_
    rw [EReal.coe_mul, EReal.coe_mul, ← hW, ← hδ, ← landSum_coe]
    show aggK gi di (fun n => δ (ix1 n)) (fun n' => x (ix2 n' d)) n * W (ix2 d k) = _
    unfold aggK
    refine congrArg (fun s => s * δ (ix1 n) * W (ix2 d k)) ?_
    refine congrArg (fun f => landSum di f n) (funext fun e => ?_)
    beta_reduce
    rw [hx, hδ, EReal.coe_mul]
  have hR : aggRA gi gi' di δ (prod x W) (ix2 n k)
      = ((∑ e : Fin EE, if (di (ix2 e (0 : Fin 1))).toInt = (n.val : Int)
            then (∑ d : Fin 2, x' (ix2 (row gi e) d) * W' (ix2 d k)) * (δ' (ix1 (row gi e)) * δ' (ix1 n)) else 0 : ℝ) : EReal) := by
    show aggR gi gi' di (fun n => δ (ix1 n)) (fun n' => prod x W (ix2 n' k)) n = _
    unfold aggR landSum
    beta_reduce
    rw [LibRealSum.coe_sum]
    refine Finset.sum_congr rfl fun e _ => ?_
    by_cases hP : (di (ix2 e (0 : Fin 1))).toInt = (n.val : Int)
    · simp only [hP, if_true]
      have hp : prod x W (ix2 (row gi e) k) = ((∑ d : Fin 2, x' (ix2 (row gi e) d) * W' (ix2 d k) : ℝ) : EReal) := by
        rw [prod_apply, ← coe_sum_fin]
        exact Finset.sum_congr rfl fun d _ => by rw [hx, hW, EReal.coe_mul]
      rw [hland e n hP, hp, hδ, hδ, ← EReal.coe_mul, ← EReal.coe_mul]
    · simp only [hP, if_false, EReal.coe_zero]
  rw [hL, hR, contract_cond_sum]

/-! ## The three layers -/

/-- On real data, with every edge slot that lands on a node naming that node in the second index column, the kernel's
    arrangement of the three layers computes the reference's. -/
theorem kerOut_eq_refOut (gi gi' di : ICol) (δ : (⟨1, ![NN]⟩ : Shape).Idx → EReal)
    (x : (⟨2, ![NN, 2]⟩ : Shape).Idx → EReal) (W1 : (⟨2, ![2, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 1]⟩ : Shape).Idx → EReal) (b3 : (⟨1, ![1]⟩ : Shape).Idx → EReal)
    (hδ : ∀ i, ∃ r : ℝ, δ i = (r : EReal)) (hx : ∀ i, ∃ r : ℝ, x i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (hW3 : ∀ i, ∃ r : ℝ, W3 i = (r : EReal))
    (hland : ∀ (e : Fin EE) (n : Fin NN), (di (ix2 e (0 : Fin 1))).toInt = (n.val : Int) → row gi' e = n) :
    kerOut gi di δ x W1 b1 W2 b2 W3 b3 = refOut gi gi' di δ x W1 b1 W2 b2 W3 b3 := by
  unfold kerOut refOut refLayer
  rw [prod_aggKA gi gi' di δ x W1 hδ hx hW1 hland]
  have h1 : ∀ i, ∃ r : ℝ, relu (addBias (aggRA gi gi' di δ (prod x W1)) b1) i = (r : EReal) :=
    relu_real _ (addBias_real _ _ (aggRA_real gi gi' di δ _ hδ (Cert.RealEntries.prod_real x W1 hx hW1)) hb1)
  rw [aggKA_eq_aggRA gi gi' di δ _ hδ (Cert.RealEntries.prod_real _ W2 h1 hW2) hland]
  have h2 : ∀ i, ∃ r : ℝ, relu (addBias (aggRA gi gi' di δ (prod (relu (addBias (aggRA gi gi' di δ (prod x W1)) b1)) W2)) b2) i = (r : EReal) :=
    relu_real _ (addBias_real _ _ (aggRA_real gi gi' di δ _ hδ (Cert.RealEntries.prod_real _ W2 h1 hW2)) hb2)
  rw [aggKA_eq_aggRA gi gi' di δ _ hδ (Cert.RealEntries.prod_real _ W3 h2 hW3) hland]

end Cert.Gcn

end
-- ==== Proof.LibVecGather.lean ====
/-
  A vector gathered at a column of start indices, read at an entry: general in the two extents and the integer width.

  The gather takes single entries of a vector `[N]` at start indices laid out `[R, 1]` (what indexing a vector by an
  integer array lowers to). Entry `r` of the result is the vector at the start index `idx[r, 0]`, read signed and brought
  into `[0, N - 1]`: the start index is the only coordinate, there is no batch axis and the slice has one entry.
-/
import Idealize.ShloMosaic.PureOps.ShapeOps
import Idealize.ShloMosaic.PureOps.Dims
import Idealize.ShloMosaic.Lib.ValueIdx

noncomputable section

namespace Cert.VecGather

open Idealize.ShloMosaic Idealize.ShloMosaic.ValueIdx

section VecGather
variable {α : Type}

/-- The dimension numbers of a gather of single entries of a vector `[N]` at starts laid out `[R, 1]`. -/
abbrev dims1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `r` of the gathered vector is the vector at the start index `idx[r, 0]`, read signed and brought into
    `[0, N - 1]`. -/
theorem vec1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (dims1 N R wf) x idx (ix1 r)
      = x (ix1 (⟨min (idx (ix2 r (0 : Fin 1))).toInt.toNat (N - 1), by omega⟩ : Fin N)) := by
  unfold Host.gather
  refine congrArg x (funext fun a => Fin.ext ?_)
  match a with
  | ⟨0, _⟩ =>
    show (dims1 N R wf).start (ix1 r) idx 0 + (dims1 N R wf).batchCoord (ix1 r) 0 + (dims1 N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (dims1 N R wf).startIndexMap from List.mem_singleton.mpr rfl)]
    have hsi : (dims1 N R wf).siIdx (ix1 r) ⟨List.idxOf (0 : Fin 1) (dims1 N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end VecGather

end Cert.VecGather

end
-- ==== Proof.RefValueLayer.lean ====
/-
  One layer of the reference's graph convolution, over abstract operands.

  A layer takes the product of the node features with the weights, gathers the product's rows at a column of source
  indices, scales every gathered row by a per-slot weight, adds the scaled rows into an all-zero array at a column of
  destination indices, and adds the bias to every row. The per-slot weight is a vector of node weights gathered at one
  index column times the same vector gathered at a second one. Read at an entry, the layer is the bias plus the sum,
  over the slots landing on the node, of the product's entry at the node the slot reads times the two node weights:
  the specification's layer.

  The per-slot weight first (two gathers of the node weights, each read at an entry), then the layer (general in the
  two widths).
-/
import proofs.«165598_j77111842832559_2_alg».proof.Proof.GcnSpec
import proofs.«165598_j77111842832559_2_alg».proof.Proof.LibScatterAddRows
import proofs.«165598_j77111842832559_2_alg».proof.Proof.LibRowGather
import proofs.«165598_j77111842832559_2_alg».proof.Proof.LibVecGather

noncomputable section

open scoped BigOperators

namespace Cert.Gcn.Ref

open Idealize.ShloMosaic Idealize.ShloMosaic.ValueIdx Cert.VecGather

/-! ## The per-slot weight -/

/-- THE PER-SLOT WEIGHT: a vector of node weights gathered at the column `gi` times the same vector gathered at the
    column `gi'` is, at slot `e`, the product of the weights of the two nodes the slot names. -/
theorem norm_value (wf : GatherDims.WF ⟨1, ![NN]⟩ ⟨2, ![EE, 1]⟩ ⟨1, ![EE]⟩ [] [0] [] [0] [] 1 ![1])
    (δ : FVec Ideal ⟨1, ![NN]⟩ .f32) (gi gi' : ICol) (e : Fin EE) :
    mulf (Host.gather (dims1 NN EE wf) δ gi) (Host.gather (dims1 NN EE wf) δ gi') (ix1 e)
      = δ (ix1 (row gi e)) * δ (ix1 (row gi' e)) := by
  rw [mulf_apply, vec1_apply (N := NN) (by decide), vec1_apply (N := NN) (by decide)]
  rfl

/-! ## One layer over abstract operands -/

/-- ONE LAYER. The product of the features with the weights, its rows gathered at the column `gi`, every gathered
    row scaled by an array `Nm` whose row `e` holds the product of the node weights at the two nodes the slot names,
    the scaled rows added into an all-zero array at the column `di`, and an array `B` whose every row is the bias
    added: that is the specification's layer. -/
theorem layer_value {Cin Cout : Nat}
    (wfg : GatherDims.WF ⟨2, ![NN, Cout]⟩ ⟨2, ![EE, 1]⟩ ⟨2, ![EE, Cout]⟩ [1] [0] [] [0] [] 1 ![1, Cout])
    (wfs : ScatterDims.WF ⟨2, ![NN, Cout]⟩ ⟨2, ![EE, 1]⟩ ⟨2, ![EE, Cout]⟩ [1] [0] [0] 1)
    (gi gi' di : ICol) (δ : FVec Ideal ⟨1, ![NN]⟩ .f32)
    (H : FVec Ideal ⟨2, ![NN, Cin]⟩ .f32) (W : FVec Ideal ⟨2, ![Cin, Cout]⟩ .f32) (b : FVec Ideal ⟨1, ![Cout]⟩ .f32)
    (Nm : FVec Ideal ⟨2, ![EE, Cout]⟩ .f32) (Z B : FVec Ideal ⟨2, ![NN, Cout]⟩ .f32)
    (hNm : ∀ (e : Fin EE) (c : Fin Cout), Nm (ix2 e c) = δ (ix1 (row gi e)) * δ (ix1 (row gi' e)))
    (hZ : ∀ (n : Fin NN) (c : Fin Cout), Z (ix2 n c) = 0)
    (hB : ∀ (n : Fin NN) (c : Fin Cout), B (ix2 n c) = b (ix1 c)) :
    addf (Host.scatterAdd (F := Ideal) (LibScatterAddRows.rowDims NN EE Cout wfs) Z di
        (mulf (Host.gather (Cert.RowGather.dims2 NN Cout EE wfg)
          (Host.dotGeneral (F := Ideal) (DotDims.plain NN Cin Cout) none H W) gi) Nm)) B
      = refLayer gi gi' di δ H W b := by
  funext i
  obtain ⟨n, c, rfl⟩ : ∃ (n : Fin NN) (c : Fin Cout), i = ix2 n c := ⟨i 0, i 1, eq_ix2 i⟩
  rw [addf_apply, LibScatterAddRows.scatterAdd_rows, hZ n c, hB n c, zero_add]
  show _ = (∑ e : Fin EE, if (di (ix2 e (0 : Fin 1))).toInt = (n.val : Int)
      then Cert.MatProd.prod H W (ix2 (row gi e) c) * (δ (ix1 (row gi e)) * δ (ix1 (row gi' e))) else 0) + b (ix1 c)
  refine congrArg (· + b (ix1 c)) (Finset.sum_congr rfl fun e _ => ?_)
  rw [mulf_apply, Cert.RowGather.rows2_apply (N := NN) (by decide), hNm e c]
  simp only [Host.dotGeneral]
  rw [Cert.MatProd.dotGeneral_plain_eq]
  rfl

end Cert.Gcn.Ref

end
-- ==== Proof.RefValue.lean ====
/-
  The reference's result as the specification's three-layer function.

  Each of the reference's three layers is the abstract layer of the companion module at the program's operands: the
  three source columns are one function of the edge array and so are the three destination columns (the same
  operations on the same joined arrays), the per-slot weight is the node-weight vector gathered at the wrapped source
  column times the same vector gathered at the wrapped destination column, the array the scaled rows are added into is
  a splat of the zero word, and the bias array repeats the bias vector down the rows. The first two layers are clamped
  below at the zero word; the third has one output column, so its per-slot weights come in as a column.
-/
import proofs.«165598_j77111842832559_2_alg».proof.Proof.RefValueLayer
import proofs.«165598_j77111842832559_2_alg».proof.Proof.RefReadPatched
import proofs.«165598_j77111842832559_2_alg».proof.Proof.LibBroadcast
import proofs.«165598_j77111842832559_2_alg».proof.Proof.LibColumnsInDim

noncomputable section

open scoped BigOperators

namespace Cert.Gcn.Ref

open Idealize.ShloMosaic Idealize.ShloMosaic.ValueIdx Cert.VecGather
open Cert.ReferenceIdeal Cert.ReferenceIdeal.Gen Cert.ReferenceIdeal.ReadP

variable (x0 : (⟨S100000x2, .f32⟩ : BufTy).Contents (Elt Ideal)) (x1 : (⟨S2x1600000, .i32⟩ : BufTy).Contents (Elt Ideal))
  (x2 : (⟨S2x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x1, .f32⟩ : BufTy).Contents (Elt Ideal)) (x7 : (⟨S1, .f32⟩ : BufTy).Contents (Elt Ideal))

/-! ## The printed dimension numbers are the general ones -/

theorem rec_vec : gather_S100000_S1700000x1_S1700000_n_0_n_n_0_1_1
    = dims1 NN EE Facts₀.gather_S100000_S1700000x1_S1700000_n_0_n_n_0_1_1_wf := rfl
theorem rec_rows64 : gather_S100000x64_S1700000x1_S1700000x64_1_0_n_n_0_1_164
    = Cert.RowGather.dims2 NN 64 EE Facts₀.gather_S100000x64_S1700000x1_S1700000x64_1_0_n_n_0_1_164_wf := rfl
theorem rec_rows1 : gather_S100000x1_S1700000x1_S1700000x1_1_0_n_n_0_1_11
    = Cert.RowGather.dims2 NN 1 EE Facts₀.gather_S100000x1_S1700000x1_S1700000x1_1_0_n_n_0_1_11_wf := rfl
theorem rec_add64 : scatter_S100000x64_S1700000x1_S1700000x64_1_0_0_1
    = LibScatterAddRows.rowDims NN EE 64 Facts₀.scatter_S100000x64_S1700000x1_S1700000x64_1_0_0_1_wf := rfl
theorem rec_add1 : scatter_S100000x1_S1700000x1_S1700000x1_1_0_0_1
    = LibScatterAddRows.rowDims NN EE 1 Facts₀.scatter_S100000x1_S1700000x1_S1700000x1_1_0_0_1_wf := rfl
theorem rec_dot1 : dot_S100000x2_S2x64_S100000x64_1_0_0_1_n_n = DotDims.plain NN 2 64 := rfl
theorem rec_dot2 : dot_S100000x64_S64x64_S100000x64_1_0_0_1_n_n = DotDims.plain NN 64 64 := rfl
theorem rec_dot3 : dot_S100000x64_S64x1_S100000x1_1_0_0_1_n_n = DotDims.plain NN 64 1 := rfl

/-! ## The index columns -/

/-- The source column each layer's row gather reads is the one the weight gather reads: the same operations on the
    same joined source array. -/
theorem src_col_1 : val_main_v37 (F := Ideal) x1 = val_main_v21 (F := Ideal) x1 := rfl
theorem src_col_2 : val_main_v55 (F := Ideal) x1 = val_main_v21 (F := Ideal) x1 := rfl
theorem src_col_3 : val_main_v73 (F := Ideal) x1 = val_main_v21 (F := Ideal) x1 := rfl

/-- The destination column each layer's scatter reads is the one the degree scatter reads. -/
theorem dst_col_1 : val_main_v43 (F := Ideal) x1 = val_main_v10 (F := Ideal) x1 := rfl
theorem dst_col_2 : val_main_v61 (F := Ideal) x1 = val_main_v10 (F := Ideal) x1 := rfl
theorem dst_col_3 : val_main_v78 (F := Ideal) x1 = val_main_v10 (F := Ideal) x1 := rfl

/-! ## The per-slot weight, and its layouts -/

/-- THE PER-SLOT WEIGHT: the node weight at the node the slot reads times the node weight at the node the wrapped
    destination column names. -/
theorem norm_apply (e : Fin EE) :
    val_main_v30 (F := Ideal) x1 (ix1 e)
      = val_main_v15 (F := Ideal) x1 (ix1 (row (val_main_v21 (F := Ideal) x1) e))
        * val_main_v15 (F := Ideal) x1 (ix1 (row (val_main_v28 (F := Ideal) x1) e)) := by
  unfold val_main_v30 val_main_v22 val_main_v29
  rw [rec_vec]
  exact norm_value _ _ _ _ e

/-- The per-slot weights repeated across 64 columns (the first layer's copy). -/
theorem norm_cols_1 (e : Fin EE) (c : Fin 64) :
    val_main_v40 (F := Ideal) x1 (ix2 e c) = val_main_v30 (F := Ideal) x1 (ix1 e) := by
  unfold val_main_v40 val_main_v39
  exact (LibColumnsInDim.col_across_apply _ _ e c).trans (LibColumnsInDim.vec_col_apply _ _ e 0)

/-- The per-slot weights repeated across 64 columns (the second layer's copy). -/
theorem norm_cols_2 (e : Fin EE) (c : Fin 64) :
    val_main_v58 (F := Ideal) x1 (ix2 e c) = val_main_v30 (F := Ideal) x1 (ix1 e) := by
  unfold val_main_v58 val_main_v57
  exact (LibColumnsInDim.col_across_apply _ _ e c).trans (LibColumnsInDim.vec_col_apply _ _ e 0)

/-- The per-slot weights as one column (the third layer's copy). -/
theorem norm_cols_3 (e : Fin EE) (c : Fin 1) :
    val_main_v75 (F := Ideal) x1 (ix2 e c) = val_main_v30 (F := Ideal) x1 (ix1 e) := by
  unfold val_main_v75
  exact LibColumnsInDim.vec_col_apply _ _ e c

/-! ## The zero arrays and the bias arrays -/

theorem zero_1 (n : Fin NN) (c : Fin 64) : val_main_v42 (F := Ideal) (ix2 n c) = 0 := by
  unfold val_main_v42 val_main_cst_8
  exact (Cert.Layout.splat_apply _ _ _).trans Ideal.ofBits_zero_f32

theorem zero_2 (n : Fin NN) (c : Fin 64) : val_main_v60 (F := Ideal) (ix2 n c) = 0 := by
  unfold val_main_v60 val_main_cst_11
  exact (Cert.Layout.splat_apply _ _ _).trans Ideal.ofBits_zero_f32

theorem zero_3 (n : Fin NN) (c : Fin 1) : val_main_v77 (F := Ideal) (ix2 n c) = 0 := by
  unfold val_main_v77 val_main_cst_14
  exact (Cert.Layout.splat_apply _ _ _).trans Ideal.ofBits_zero_f32

theorem bias_1 (n : Fin NN) (c : Fin 64) : val_main_v46 (F := Ideal) x3 (ix2 n c) = x3 (ix1 c) := by
  unfold val_main_v46 val_main_v45
  exact Cert.Layout.rows_of_vec_apply x3 _ _ n c

theorem bias_2 (n : Fin NN) (c : Fin 64) : val_main_v64 (F := Ideal) x5 (ix2 n c) = x5 (ix1 c) := by
  unfold val_main_v64 val_main_v63
  exact Cert.Layout.rows_of_vec_apply x5 _ _ n c

theorem bias_3 (n : Fin NN) (c : Fin 1) : val_main_v81 (F := Ideal) x7 (ix2 n c) = x7 (ix1 c) := by
  unfold val_main_v81 val_main_v80
  exact Cert.Layout.rows_of_vec_apply x7 _ _ n c

/-! ## The three layers -/

/-- The first layer's result. -/
theorem layer1 :
    val_main_v47 (F := Ideal) x0 x1 x2 x3
      = refLayer (val_main_v21 (F := Ideal) x1) (val_main_v28 (F := Ideal) x1) (val_main_v10 (F := Ideal) x1)
          (val_main_v15 (F := Ideal) x1) x0 x2 x3 := by
  unfold val_main_v47 val_main_v44 val_main_v41 val_main_v38 val_main_v31
  rw [src_col_1, dst_col_1, rec_rows64, rec_add64, rec_dot1]
  exact layer_value _ _ _ _ _ _ x0 x2 x3 _ _ _
    (fun e c => (norm_cols_1 x1 e c).trans (norm_apply x1 e)) zero_1 (bias_1 x3)

/-- The first clamp. -/
theorem relu1 : val_main_v48 (F := Ideal) x0 x1 x2 x3 = relu (val_main_v47 (F := Ideal) x0 x1 x2 x3) := rfl

/-- The second layer's result, over the first clamp's. -/
theorem layer2 :
    val_main_v65 (F := Ideal) x0 x1 x2 x3 x4 x5
      = refLayer (val_main_v21 (F := Ideal) x1) (val_main_v28 (F := Ideal) x1) (val_main_v10 (F := Ideal) x1)
          (val_main_v15 (F := Ideal) x1) (val_main_v48 (F := Ideal) x0 x1 x2 x3) x4 x5 := by
  unfold val_main_v65 val_main_v62 val_main_v59 val_main_v56 val_main_v49
  rw [src_col_2, dst_col_2, rec_rows64, rec_add64, rec_dot2]
  exact layer_value _ _ _ _ _ _ (val_main_v48 (F := Ideal) x0 x1 x2 x3) x4 x5 _ _ _
    (fun e c => (norm_cols_2 x1 e c).trans (norm_apply x1 e)) zero_2 (bias_2 x5)

/-- The second clamp. -/
theorem relu2 :
    val_main_v66 (F := Ideal) x0 x1 x2 x3 x4 x5 = relu (val_main_v65 (F := Ideal) x0 x1 x2 x3 x4 x5) := rfl

/-- The third layer's result, over the second clamp's. -/
theorem layer3 :
    val_main_v82 (F := Ideal) x0 x1 x2 x3 x4 x5 x6 x7
      = refLayer (val_main_v21 (F := Ideal) x1) (val_main_v28 (F := Ideal) x1) (val_main_v10 (F := Ideal) x1)
          (val_main_v15 (F := Ideal) x1) (val_main_v66 (F := Ideal) x0 x1 x2 x3 x4 x5) x6 x7 := by
  unfold val_main_v82 val_main_v79 val_main_v76 val_main_v74 val_main_v67
  rw [src_col_3, dst_col_3, rec_rows1, rec_add1, rec_dot3]
  exact layer_value _ _ _ _ _ _ (val_main_v66 (F := Ideal) x0 x1 x2 x3 x4 x5) x6 x7 _ _ _
    (fun e c => (norm_cols_3 x1 e c).trans (norm_apply x1 e)) zero_3 (bias_3 x7)

/-- THE REFERENCE'S RESULT is the specification's three-layer function of the two wrapped index columns, the
    destination column, the node weights and the eight arguments. -/
theorem ref_value :
    val_main_v82 (F := Ideal) x0 x1 x2 x3 x4 x5 x6 x7
      = Cert.Gcn.refOut (val_main_v21 (F := Ideal) x1) (val_main_v28 (F := Ideal) x1) (val_main_v10 (F := Ideal) x1)
          (val_main_v15 (F := Ideal) x1) x0 x2 x3 x4 x5 x6 x7 := by
  rw [layer3, relu2, layer2, relu1, layer1]
  rfl

end Cert.Gcn.Ref

end
-- ==== Proof.LibScatterAddVec.lean ====
/-
  An accumulating scatter of scalars into a vector, read at an entry.

  The operand is a vector of `N` entries, the updates a vector of `E` scalars, and update `e` is added onto the operand
  entry whose number is the `e`-th scatter index (one signed integer per update, held as an `E × 1` array); an update
  whose index is negative or `≥ N` is dropped. On the extended reals the result at `n` is therefore the operand's entry
  plus the sum of the updates `e` whose index is `n`.

  Everything is general in the two extents and in the width of the index integers.
-/
import Idealize.ShloMosaic.PureOps.Ideal
import Idealize.ShloMosaic.PureOps.Contract
import Idealize.ShloMosaic.Lib.ValueIdx

noncomputable section

namespace LibScatterAddVec

open Idealize.ShloMosaic Idealize.ShloMosaic.ValueIdx

variable {N E w : Nat}

/-- The dimension numbers of a scalar scatter into a vector: operand `[N]`, one index per update held as `[E, 1]`,
    updates `[E]`; no window axis, and the operand's one axis is the one the index names. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the `e`-th scatter index, read signed. -/
theorem start_at (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- There is no window axis: the window coordinate is zero. -/
theorem window_at (e : Fin E) : (vecDims N E wf).window (ix1 e) 0 = 0 := by
  unfold ScatterDims.window
  rw [dif_neg (show ¬ (0 : Fin 1) ∈ (vecDims N E wf).sKept from by
    show ¬ (0 : Fin 1) ∈ ([] : List (Fin 1))
    exact List.not_mem_nil)]

/-- WHERE AN UPDATE LANDS: update `e` lands on operand entry `n` exactly when the `e`-th index is `n`. -/
theorem resultIdx?_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hs0 := start_at wf idx e
  have hw0 := window_at wf e
  unfold ScatterDims.resultIdx?
  constructor
  · intro H
    split at H
    · rename_i h
      have H' := Option.some.inj H
      have h0 : ((vecDims N E wf).start (ix1 e) idx 0 + (vecDims N E wf).window (ix1 e) 0).toNat = n.val :=
        congrArg (fun f => (f 0).val) H'
      have hh0 := (h 0).1
      rw [hs0, hw0] at h0 hh0
      omega
    · exact absurd H (by simp)
  · intro h0
    have hn : n.val < N := n.isLt
    have h : ∀ a, 0 ≤ (vecDims N E wf).start (ix1 e) idx a + (vecDims N E wf).window (ix1 e) a
        ∧ (vecDims N E wf).start (ix1 e) idx a + (vecDims N E wf).window (ix1 e) a
          < (⟨1, ![N]⟩ : Shape).size a :=
      Fin.forall_fin_one.2 ⟨by rw [hs0, hw0, h0]; omega, by
        rw [hs0, hw0, h0]
        show (n.val : Int) + ((0 : Nat) : Int) < ((N : Nat) : Int)
        omega⟩
    rw [dif_pos h]
    refine congrArg some (funext ?_)
    refine Fin.forall_fin_one.2 (Fin.ext ?_)
    show ((vecDims N E wf).start (ix1 e) idx 0 + (vecDims N E wf).window (ix1 e) 0).toNat = n.val
    rw [hs0, hw0, h0]; omega

/-- THE SCALAR SCATTER READ AT AN ENTRY, on the extended reals: the operand's entry plus the updates whose index is
    `n`. -/
theorem hostScatterAdd_vec (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_iff]

/-- The same for the host operation as a program prints it, read at the exact instance. -/
theorem scatterAdd_vec (x : FVec Ideal ⟨1, ![N]⟩ .f32) (idx : IVec ⟨2, ![E, 1]⟩ w)
    (upd : FVec Ideal ⟨1, ![E]⟩ .f32) (n : Fin N) :
    Host.scatterAdd (F := Ideal) (vecDims N E wf) x idx upd (ix1 n)
      = x (ix1 n) + ∑ e : Fin E, if (idx (ix2 e (0 : Fin 1))).toInt = (n.val : Int) then upd (ix1 e) else 0 :=
  hostScatterAdd_vec wf x idx upd n

end LibScatterAddVec

end
-- ==== Proof.RealFacts.lean ====
/-
  Realness of the numbers the graph convolution works with, and the wrapped destination column.

  The extended reals are not a ring; every law of the graph convolution used by this certificate holds on real numbers only.
  This module supplies the three places where "it is a real number" comes from:

  * the precondition: it says of every float argument array that all its entries have absolute value below the pattern
    0x7F800000, which denotes +∞; an extended real whose absolute value max(x, -x) is below +∞ is neither infinity, so it
    is a real;
  * the node weights: the degree of node n is the zero word plus a sum, over the edge slots whose destination word is n,
    of the pattern 0x3F800000, which denotes 1; that is a real; where the degree is above zero its reciprocal square root
    is the real 1/sqrt, elsewhere the weight is the zero word;
  * the wrapped destination column: a word that, read signed, is a node number n is not negative, so the wrap
    "add the node count where negative" keeps it, and the clamp into the node range keeps n < 100000.
-/
import proofs.«165598_j77111842832559_2_alg».proof.Defs
import proofs.«165598_j77111842832559_2_alg».proof.Proof.Gen.Pre_finite_inputs
import proofs.«165598_j77111842832559_2_alg».proof.Proof.RefReadPatched
import proofs.«165598_j77111842832559_2_alg».proof.Proof.GcnSpec
import proofs.«165598_j77111842832559_2_alg».proof.Proof.LibScatterAddVec
import proofs.«165598_j77111842832559_2_alg».proof.Proof.LibRealSum
import Idealize.ShloMosaic.Lib.ReduceAll
import Idealize.ShloMosaic.Lib.ValueIdx
import Idealize.ShloMosaic.PureOps.Ideal

noncomputable section

namespace Cert.Gcn.Facts

open Idealize.ShloMosaic Idealize.ShloMosaic.ValueIdx Idealize.SL.Sem

/-! ## The precondition: every float argument is an array of reals -/

/-- The rank-0 shape has one index. -/
instance subsingleton_idx0 : Subsingleton (⟨0, ![]⟩ : Shape).Idx := ⟨fun a b => funext fun d => d.elim0⟩

/-- The pattern 0x7F800000 denotes +∞. -/
theorem ofBits_inf : Ideal.ofBits .f32 0x7F800000#32 = ⊤ := by simp [Ideal.ofBits, Ideal.ieee]

/-- An extended real whose absolute value max(x, -x) compares below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf] at h'
  induction x using EReal.rec with
  | bot => exact absurd h' (by simp [Ideal.cmp])
  | top => exact absurd h' (by simp [Ideal.cmp])
  | coe r => exact ⟨r, rfl⟩

/-- An array whose "all entries have absolute value below +∞" word is 1 has only real entries. -/
theorem real_of_all_finite {s : Shape} {axes : List (Fin s.rank)} (x : FVec Ideal s .f32)
    (dims : Fin (⟨0, ![]⟩ : Shape).rank → Fin s.rank) (hb : (⟨0, ![]⟩ : Shape).BroadcastsInDim s dims)
    (hr : s.ReducesTo axes ⟨0, ![]⟩) (hu : 0 < (⟨0, ![]⟩ : Shape).numel)
    (h : Host.reduce IntOp.andi
        (cmpf .olt (Host.absf x) (broadcastInDim s dims hb (constant (F := Ideal) ⟨0, ![]⟩ .f32 0x7F800000#32)))
        (constantI ⟨0, ![]⟩ 1 1#1) hr hu ix0 = 1#1) :
    ∀ i, ∃ r : ℝ, x i = (r : EReal) := fun i =>
  real_of_abs_lt_inf (x i) (Host.reduce_andi_all _ _ hr hu ix0 h i)

/-- Under the precondition every float argument of the idealized kernel is an array of reals. -/
theorem real_args (m : (ℓ : Loc Cert.KernelIdeal.nD Cert.KernelIdeal.τ Cert.KernelIdeal.sig) → Buf (Elt Ideal) ℓ)
    [hPre_finite_inputs : Cert.Pre_finite_inputs.Facts]
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal)) := by
  have h0 := congrFun (h c) ix0
  dsimp only [Cert.Pre_finite_inputs.fn, Cert.Pre_finite_inputs.fn_part1, andi] at h0
  rw [IntOp.andi_eq_one, IntOp.andi_eq_one, IntOp.andi_eq_one, IntOp.andi_eq_one, IntOp.andi_eq_one,
    IntOp.andi_eq_one] at h0
  obtain ⟨⟨⟨⟨⟨⟨a0, a2⟩, a3⟩, a4⟩, a5⟩, a6⟩, a7⟩ := h0
  exact ⟨real_of_all_finite _ _ _ _ _ a0, real_of_all_finite _ _ _ _ _ a2, real_of_all_finite _ _ _ _ _ a3,
    real_of_all_finite _ _ _ _ _ a4, real_of_all_finite _ _ _ _ _ a5, real_of_all_finite _ _ _ _ _ a6,
    real_of_all_finite _ _ _ _ _ a7⟩

open Cert.ReferenceIdeal

/-! ## The node weights are real -/

/-- The pattern 0x3F800000 denotes the real number 1. -/
theorem ofBits_one : Ideal.ofBits .f32 0x3F800000#32 = ((1 : ℝ) : EReal) := by
  simp [Ideal.ofBits, Ideal.ieee, -EReal.coe_mul]; norm_num

/-- The degree of a node — the zero word plus one unit per edge slot whose destination word names the node — is a real. -/
theorem deg_real (x1 : (⟨S2x1600000, .i32⟩ : BufTy).Contents (Elt Ideal)) (n : Fin 100000) :
    ∃ d : ℝ, ReadP.val_main_v11 (F := Ideal) x1 (ix1 n) = (d : EReal) := by
  have hrec : scatter_S100000_S1700000x1_S1700000_n_0_0_1
      = LibScatterAddVec.vecDims 100000 1700000 Facts₀.scatter_S100000_S1700000x1_S1700000_n_0_0_1_wf := rfl
  have h9 : ReadP.val_main_v9 (F := Ideal) (ix1 n) = 0 := by
    rw [ReadP.val_main_v9_apply, ReadP.val_main_cst_0_apply]; exact Ideal.ofBits_zero_f32
  have h8 : ∀ e : Fin 1700000, ReadP.val_main_v8 (F := Ideal) (ix1 e) = ((1 : ℝ) : EReal) := fun e => by
    rw [ReadP.val_main_v8_apply, ReadP.val_main_cst_apply]; exact ofBits_one
  refine ⟨∑ e : Fin 1700000,
    if (ReadP.val_main_v10 (F := Ideal) x1 (ix2 e (0 : Fin 1))).toInt = (n.val : Int) then (1 : ℝ) else 0, ?_⟩
  unfold ReadP.val_main_v11
  rw [hrec, LibScatterAddVec.scatterAdd_vec, h9, zero_add, LibRealSum.coe_sum]
  refine Finset.sum_congr rfl fun e _ => ?_
  rw [h8 e]
  split_ifs
  · rfl
  · exact EReal.coe_zero.symm

/-- The weight of a node — the reciprocal square root of its degree where the degree is above zero, the zero word
    elsewhere — is a real, whatever the edge array. -/
theorem dinv_real (x1 : (⟨S2x1600000, .i32⟩ : BufTy).Contents (Elt Ideal)) (n : Fin 100000) :
    ∃ r : ℝ, ReadP.val_main_v15 (F := Ideal) x1 (ix1 n) = (r : EReal) := by
  obtain ⟨d, hd⟩ := deg_real x1 n
  have h12 : ReadP.val_main_v12 (F := Ideal) (ix1 n) = 0 := by
    rw [ReadP.val_main_v12_apply, ReadP.val_main_cst_1_apply]; exact Ideal.ofBits_zero_f32
  have hc : ReadP.val_main_call0_v1 (F := Ideal) (ix1 n) = 0 := by
    rw [ReadP.val_main_call0_v1_apply, ReadP.val_main_call0_v0_apply, ReadP.val_main_cst_2_apply]
    exact Ideal.ofBits_zero_f32
  rw [ReadP.val_main_v15_apply, ReadP.val_main_v13_apply, ReadP.val_main_v14_apply, hd, h12, hc]
  show ∃ r : ℝ, (if Ideal.cmp .ogt (d : EReal) 0 = 1 then Ideal.rsqrt (d : EReal) else 0) = (r : EReal)
  by_cases hpos : (0 : ℝ) < d
  · refine ⟨(Real.sqrt d)⁻¹, ?_⟩
    have h1 : Ideal.cmp .ogt (d : EReal) 0 = 1 := by simp [Ideal.cmp, hpos]
    rw [if_pos h1, Ideal.rsqrt_coe, if_neg (not_lt.mpr hpos.le), if_neg hpos.ne']
  · refine ⟨0, ?_⟩
    have h1 : ¬ Ideal.cmp .ogt (d : EReal) 0 = 1 := by simp [Ideal.cmp, hpos]
    rw [if_neg h1]; rfl

/-! ## The wrapped destination column names the node an edge slot lands on -/

/-- A 32-bit word that, read signed, is a node number is kept by the wrap and by the clamp into the node range. -/
theorem wrap_keeps (w : BitVec 32) (n : Fin 100000) (h : w.toInt = (n.val : Int)) :
    min (Scalar.select (IntOp.cmpi .slt w 0#32) (IntOp.addi w 100000#32) w).toInt.toNat (100000 - 1) = n.val := by
  have hn := n.isLt
  have hlt : ¬ IntOp.cmpi .slt w 0#32 = 1 := by
    intro hc
    have h0 : w.toInt < (0#32 : BitVec 32).toInt := (IntOp.cmpi_slt (x := w) (y := 0#32)).mp hc
    rw [h, BitVec.toInt_zero] at h0
    omega
  unfold Scalar.select
  rw [if_neg hlt, h]
  omega

/-- An edge slot that lands on node n (its destination word, read signed, is exactly n) names n in the wrapped
    destination column. -/
theorem row_of_lands (x1 : (⟨S2x1600000, .i32⟩ : BufTy).Contents (Elt Ideal)) (e : Fin 1700000) (n : Fin 100000)
    (h : ((ReadP.val_main_v10 (F := Ideal) x1 : Cert.Gcn.ICol) (ix2 e (0 : Fin 1))).toInt = (n.val : Int)) :
    Cert.Gcn.row (ReadP.val_main_v28 (F := Ideal) x1) e = n := by
  rw [ReadP.val_main_v10_apply] at h
  have h28 : ReadP.val_main_v28 (F := Ideal) x1 (ix2 e (0 : Fin 1))
      = Scalar.select (IntOp.cmpi .slt (ReadP.val_main_v7 (F := Ideal) x1 (ReadP.idx_main_v10 (ix2 e (0 : Fin 1)))) 0#32)
          (IntOp.addi (ReadP.val_main_v7 (F := Ideal) x1 (ReadP.idx_main_v10 (ix2 e (0 : Fin 1)))) 100000#32)
          (ReadP.val_main_v7 (F := Ideal) x1 (ReadP.idx_main_v10 (ix2 e (0 : Fin 1)))) := by
    rw [ReadP.val_main_v28_apply, ReadP.val_main_v27_apply, ReadP.val_main_v24_apply, ReadP.val_main_v26_apply,
      ReadP.val_main_v23_apply, ReadP.val_main_v25_apply, ReadP.val_main_c_4_apply, ReadP.val_main_c_5_apply]
  refine Fin.ext ?_
  show min (ReadP.val_main_v28 (F := Ideal) x1 (ix2 e (0 : Fin 1))).toInt.toNat (100000 - 1) = n.val
  rw [h28]
  exact wrap_keeps _ n h

end Cert.Gcn.Facts

end
-- ==== Proof.lean ====
/-
  The certificate of the three-layer graph convolution: the Pallas kernel's program against the plain reference, on the
  extended reals.

  Both programs build, from the integer edge array alone, the src and dst words of 1700000 edge slots (the given edges, then
  one self loop per node), the degree of each node (how many slots land on it) and the node weight `δ = deg^(-1/2)` where the
  degree is positive. A layer of the reference is `H ↦ aggregate(H · W) + b`, where `aggregate` adds, over the slots landing on
  a node, the row the slot reads scaled by the PRODUCT of the weights of the slot's two end nodes. The kernel scales rows by
  the weight of the node they are read from before gathering and by the weight of the landing node after scatter-adding, and
  for the first layer it aggregates the width-2 input before the product with `W1`; its two pallas_calls compute
  `relu(A · W1 + b1) · W2` and `relu(A + b2) · W3` on blocks of 10000 rows.

  The two arrangements differ by distributivity only: a factor common to the terms of a finite sum taken out of the sum,
  and two finite sums exchanged. On the extended reals that needs every number involved to be real; the inputs are, by the
  precondition, and the node weights are, being `deg^(-1/2)` of a positive count or zero. The frames are the generated
  ones; nothing was rewritten by the idealization, so its soundness claim is trivial.
-/
import proofs.«165598_j77111842832559_2_alg».proof.Defs
import proofs.«165598_j77111842832559_2_alg».proof.Proof.Gen.Kernel
import proofs.«165598_j77111842832559_2_alg».proof.Proof.Gen.Kernel.Skeleton
import proofs.«165598_j77111842832559_2_alg».proof.Proof.Gen.Kernel.Launch
import proofs.«165598_j77111842832559_2_alg».proof.Proof.Gen.Kernel.Points
import proofs.«165598_j77111842832559_2_alg».proof.Proof.Gen.Kernel.Frame
import proofs.«165598_j77111842832559_2_alg».proof.Proof.Gen.KernelIdeal
import proofs.«165598_j77111842832559_2_alg».proof.Proof.Gen.KernelIdeal.Skeleton
import proofs.«165598_j77111842832559_2_alg».proof.Proof.Gen.KernelIdeal.Launch
import proofs.«165598_j77111842832559_2_alg».proof.Proof.Gen.KernelIdeal.Points
import proofs.«165598_j77111842832559_2_alg».proof.Proof.Gen.KernelIdeal.Frame
import proofs.«165598_j77111842832559_2_alg».proof.Proof.Gen.ReferenceIdeal
import proofs.«165598_j77111842832559_2_alg».proof.Proof.RefReadPatched
import proofs.«165598_j77111842832559_2_alg».proof.Proof.Gen.Pre_finite_inputs
import proofs.«165598_j77111842832559_2_alg».proof.Proof.KernelRun
import proofs.«165598_j77111842832559_2_alg».proof.Proof.KernelValue
import proofs.«165598_j77111842832559_2_alg».proof.Proof.CrossId
import proofs.«165598_j77111842832559_2_alg».proof.Proof.GcnAlgebra
import proofs.«165598_j77111842832559_2_alg».proof.Proof.RefValue
import proofs.«165598_j77111842832559_2_alg».proof.Proof.RealFacts
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
/-- The reference has no pallas_call: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments, the idealized kernel ends with `kerOut` of the launch arrays and the reference
    with `refOut` of the same arrays, the index columns and node weights being the same functions of the edge array; on
    real inputs `kerOut = refOut`. -/
theorem algebraic : Cert.algebraic_KernelIdeal_ReferenceIdeal := by
  intro m ρ m' ρ' hpre hagree
  refine ⟨fun c => Cert.Gcn.kerOut
      (Cert.Gcn.Ker.wrapCol (Cert.KernelIdeal.Gen.W1 (F := Ideal) m ρ c (Proc.devRef .tc Cert.KernelIdeal.main_v3)))
      (Cert.Gcn.Ker.dstCol (Cert.KernelIdeal.Gen.W1 (F := Ideal) m ρ c (Proc.devRef .tc Cert.KernelIdeal.main_v6)))
      (Cert.KernelIdeal.Gen.W2 (F := Ideal) m ρ c (Proc.devRef .tc Cert.KernelIdeal.main_v14))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Gcn.Ker.kernel_value m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7⟩ := hagree c
    obtain ⟨r0, r2, r3, r4, r5, r6, r7⟩ := Cert.Gcn.Facts.real_args m hpre c
    rw [Cert.ReferenceIdeal.ReadP.val_main_v82_eq, a0, a1, a2, a3, a4, a5, a6, a7, Cert.Gcn.Ref.ref_value]
    beta_reduce
    rw [Cert.Gcn.Cross.src_eq, Cert.Gcn.Cross.dst_eq, Cert.Gcn.Cross.weights_eq, Cert.Gcn.Cross.wrapCol_eq, Cert.Gcn.Cross.dstCol_eq]
    exact (Cert.Gcn.kerOut_eq_refOut _ _ _ _ _ _ _ _ _ _ _ (fun i => by rw [Idealize.ShloMosaic.ValueIdx.eq_ix1 i]; exact Cert.Gcn.Facts.dinv_real _ (i 0)) r0 r2 r3 r4 r5 r6
      (Cert.Gcn.Facts.row_of_lands _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
